-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x32 : Shape := ⟨2, ![50000, 32]⟩
abbrev S2x1600000 : Shape := ⟨2, ![2, 1600000]⟩
abbrev S32x64 : Shape := ⟨2, ![32, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S_ : Shape := ⟨0, ![]⟩

class Facts : Prop where
  bcast_S_S50000x32 : S_.BroadcastsInDim S50000x32 (![] : Fin 0 → Fin S50000x32.rank)
  reducesTo_S50000x32_S_d0_1 : S50000x32.ReducesTo [0, 1] S_
  h_S_ : 0 < S_.numel
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  main_v53

def fn_part2 {F : FTy → Type} [FloatOps F] (main_arg8 : FVec F S64x32 .f32) (main_arg9 : FVec F S32 .f32) (main_arg10 : FVec F S32x1 .f32) (main_arg11 : FVec F S1 .f32) (main_v33 : IVec S_ 1) : IVec S_ 1 :=
  let main_v34 : FVec F S64x32 .f32 := Host.absf main_arg8
  let main_cst_12 : FVec F S_ .f32 := constant S_ .f32 0x7F800000#32
  let main_v35 : FVec F S64x32 .f32 := broadcastInDim S64x32 ![] bcast_S_S64x32 main_cst_12
  let main_v36 : IVec S64x32 1 := cmpf .olt main_v34 main_v35
  let main_c_13 : IVec S_ 1 := constantI S_ 1 1#1
  let main_v37 : IVec S_ 1 := (fun x v => Host.reduce IntOp.andi x v reducesTo_S64x32_S_d0_1 h_S_) main_v36 main_c_13
  let main_v38 : IVec S_ 1 := andi main_v33 main_v37
  let main_v39 : FVec F S32 .f32 := Host.absf main_arg9
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  let main_v44 : FVec F S32x1 .f32 := Host.absf main_arg10
  let main_cst_16 : FVec F S_ .f32 := constant S_ .f32 0x7F800000#32
  let main_v45 : FVec F S32x1 .f32 := broadcastInDim S32x1 ![] bcast_S_S32x1 main_cst_16
  let main_v46 : IVec S32x1 1 := cmpf .olt main_v44 main_v45
  let main_c_17 : IVec S_ 1 := constantI S_ 1 1#1
  let main_v47 : IVec S_ 1 := (fun x v => Host.reduce IntOp.andi x v reducesTo_S32x1_S_d0_1 h_S_) main_v46 main_c_17
  let main_v48 : IVec S_ 1 := andi main_v43 main_v47
  let main_v49 : FVec F S1 .f32 := Host.absf main_arg11
  let main_cst_18 : FVec F S_ .f32 := constant S_ .f32 0x7F800000#32
  let main_v50 : FVec F S1 .f32 := broadcastInDim S1 ![] bcast_S_S1 main_cst_18
  fn_part3 (F := F) main_v48 main_v49 main_v50

def fn_part1 {F : FTy → Type} [FloatOps F] (main_arg5 : FVec F S64x64 .f32) (main_arg6 : FVec F S64 .f32) (main_arg7 : FVec F S64x64 .f32) (main_arg8 : FVec F S64x32 .f32) (main_arg9 : FVec F S32 .f32) (main_arg10 : FVec F S32x1 .f32) (main_arg11 : FVec F S1 .f32) (main_v13 : IVec S_ 1) (main_v16 : IVec S32x64 1) : IVec S_ 1 :=
  let main_c_5 : IVec S_ 1 := constantI S_ 1 1#1
  let main_v17 : IVec S_ 1 := (fun x v => Host.reduce IntOp.andi x v reducesTo_S32x64_S_d0_1 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg7
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg8 main_arg9 main_arg10 main_arg11 main_v33

def fn {F : FTy → Type} [FloatOps F] (main_arg0 : FVec F S50000x32 .f32) (main_arg1 : IVec S2x1600000 32) (main_arg2 : FVec F S32x64 .f32) (main_arg3 : FVec F S64 .f32) (main_arg4 : FVec F S32x64 .f32) (main_arg5 : FVec F S64x64 .f32) (main_arg6 : FVec F S64 .f32) (main_arg7 : FVec F S64x64 .f32) (main_arg8 : FVec F S64x32 .f32) (main_arg9 : FVec F S32 .f32) (main_arg10 : FVec F S32x1 .f32) (main_arg11 : FVec F S1 .f32) : IVec S_ 1 :=
  let main_v0 : FVec F S50000x32 .f32 := Host.absf main_arg0
  let main_cst : FVec F S_ .f32 := constant S_ .f32 0x7F800000#32
  let main_v1 : FVec F S50000x32 .f32 := broadcastInDim S50000x32 ![] bcast_S_S50000x32 main_cst
  let main_v2 : IVec S50000x32 1 := cmpf .olt main_v0 main_v1
  let main_c : IVec S_ 1 := constantI S_ 1 1#1
  let main_v3 : IVec S_ 1 := (fun x v => Host.reduce IntOp.andi x v reducesTo_S50000x32_S_d0_1 h_S_) main_v2 main_c
  let main_v4 : FVec F S32x64 .f32 := Host.absf main_arg2
  let main_cst_0 : FVec F S_ .f32 := constant S_ .f32 0x7F800000#32
  let main_v5 : FVec F S32x64 .f32 := broadcastInDim S32x64 ![] bcast_S_S32x64 main_cst_0
  let main_v6 : IVec S32x64 1 := cmpf .olt main_v4 main_v5
  let main_c_1 : IVec S_ 1 := constantI S_ 1 1#1
  let main_v7 : IVec S_ 1 := (fun x v => Host.reduce IntOp.andi x v reducesTo_S32x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S32x64 .f32 := Host.absf main_arg4
  let main_cst_4 : FVec F S_ .f32 := constant S_ .f32 0x7F800000#32
  let main_v15 : FVec F S32x64 .f32 := broadcastInDim S32x64 ![] bcast_S_S32x64 main_cst_4
  let main_v16 : IVec S32x64 1 := cmpf .olt main_v14 main_v15
  fn_part1 (F := F) main_arg5 main_arg6 main_arg7 main_arg8 main_arg9 main_arg10 main_arg11 main_v13 main_v16
-- ==== Kernel.lean ====
abbrev S50000x32 : Shape := ⟨2, ![50000, 32]⟩
abbrev S2x1600000 : Shape := ⟨2, ![2, 1600000]⟩
abbrev S32x64 : Shape := ⟨2, ![32, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S50000 : Shape := ⟨1, ![50000]⟩
abbrev S1600000x1 : Shape := ⟨2, ![1600000, 1]⟩
abbrev S50000x1 : Shape := ⟨2, ![50000, 1]⟩
abbrev S1600000x32 : Shape := ⟨2, ![1600000, 32]⟩
abbrev S1x64 : Shape := ⟨2, ![1, 64]⟩
abbrev S50000x64 : Shape := ⟨2, ![50000, 64]⟩
abbrev S5000x32 : Shape := ⟨2, ![5000, 32]⟩
abbrev S5000x1 : Shape := ⟨2, ![5000, 1]⟩
abbrev S5000x64 : Shape := ⟨2, ![5000, 64]⟩
abbrev S5000 : Shape := ⟨1, ![5000]⟩
abbrev S1600000x64 : Shape := ⟨2, ![1600000, 64]⟩
abbrev S1x32 : Shape := ⟨2, ![1, 32]⟩
abbrev S1x1 : Shape := ⟨2, ![1, 1]⟩

abbrev nBuf : Space → Nat
  | .hbm => 63
  | .vmem => 26
  | .smem => 0
  | _ => 0

abbrev bufTy : (tb : Table) → Fin (tcTables nBuf tb) → BufTy
  | .hbm, ⟨0, _⟩ => ⟨S50000x32, .f32⟩
  | .hbm, ⟨1, _⟩ => ⟨S2x1600000, .i32⟩
  | .hbm, ⟨2, _⟩ => ⟨S32x64, .f32⟩
  | .hbm, ⟨3, _⟩ => ⟨S64, .f32⟩
  | .hbm, ⟨4, _⟩ => ⟨S32x64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64x32, .f32⟩
  | .hbm, ⟨9, _⟩ => ⟨S32, .f32⟩
  | .hbm, ⟨10, _⟩ => ⟨S32x1, .f32⟩
  | .hbm, ⟨11, _⟩ => ⟨S1, .f32⟩
  | .hbm, ⟨12, _⟩ => ⟨S1x1600000, .i32⟩
  | .hbm, ⟨13, _⟩ => ⟨S1600000, .i32⟩
  | .hbm, ⟨14, _⟩ => ⟨S1x1600000, .i32⟩
  | .hbm, ⟨15, _⟩ => ⟨S1600000, .i32⟩
  | .hbm, ⟨16, _⟩ => ⟨S_, .f32⟩
  | .hbm, ⟨17, _⟩ => ⟨S1600000, .f32⟩
  | .hbm, ⟨18, _⟩ => ⟨S_, .f32⟩
  | .hbm, ⟨19, _⟩ => ⟨S50000, .f32⟩
  | .hbm, ⟨20, _⟩ => ⟨S1600000x1, .i32⟩
  | .hbm, ⟨21, _⟩ => ⟨S50000, .f32⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S50000x1, .f32⟩
  | .hbm, ⟨26, _⟩ => ⟨S50000x32, .bf16⟩
  | .hbm, ⟨27, _⟩ => ⟨S_, .i32⟩
  | .hbm, ⟨28, _⟩ => ⟨S1600000, .i32⟩
  | .hbm, ⟨29, _⟩ => ⟨S1600000, .i1⟩
  | .hbm, ⟨30, _⟩ => ⟨S_, .i32⟩
  | .hbm, ⟨31, _⟩ => ⟨S1600000, .i32⟩
  | .hbm, ⟨32, _⟩ => ⟨S1600000, .i32⟩
  | .hbm, ⟨33, _⟩ => ⟨S1600000, .i32⟩
  | .hbm, ⟨34, _⟩ => ⟨S1600000x1, .i32⟩
  | .hbm, ⟨35, _⟩ => ⟨S1600000x32, .bf16⟩
  | .hbm, ⟨36, _⟩ => ⟨S1600000x32, .f32⟩
  | .hbm, ⟨37, _⟩ => ⟨S_, .f32⟩
  | .hbm, ⟨38, _⟩ => ⟨S50000x32, .f32⟩
  | .hbm, ⟨39, _⟩ => ⟨S1600000x1, .i32⟩
  | .hbm, ⟨40, _⟩ => ⟨S50000x32, .f32⟩
  | .hbm, ⟨41, _⟩ => ⟨S1x64, .f32⟩
  | .hbm, ⟨42, _⟩ => ⟨S50000x64, .bf16⟩
  | .hbm, ⟨43, _⟩ => ⟨S_, .i32⟩
  | .hbm, ⟨44, _⟩ => ⟨S1600000, .i32⟩
  | .hbm, ⟨45, _⟩ => ⟨S1600000, .i1⟩
  | .hbm, ⟨46, _⟩ => ⟨S_, .i32⟩
  | .hbm, ⟨47, _⟩ => ⟨S1600000, .i32⟩
  | .hbm, ⟨48, _⟩ => ⟨S1600000, .i32⟩
  | .hbm, ⟨49, _⟩ => ⟨S1600000, .i32⟩
  | .hbm, ⟨50, _⟩ => ⟨S1600000x1, .i32⟩
  | .hbm, ⟨51, _⟩ => ⟨S1600000x64, .bf16⟩
  | .hbm, ⟨52, _⟩ => ⟨S1600000x64, .f32⟩
  | .hbm, ⟨53, _⟩ => ⟨S_, .f32⟩
  | .hbm, ⟨54, _⟩ => ⟨S50000x64, .f32⟩
  | .hbm, ⟨55, _⟩ => ⟨S1600000x1, .i32⟩
  | .hbm, ⟨56, _⟩ => ⟨S50000x64, .f32⟩
  | .hbm, ⟨57, _⟩ => ⟨S1x32, .f32⟩
  | .hbm, ⟨58, _⟩ => ⟨S1x64, .f32⟩
  | .hbm, ⟨59, _⟩ => ⟨S1x32, .f32⟩
  | .hbm, ⟨60, _⟩ => ⟨S1x1, .f32⟩
  | .hbm, ⟨61, _⟩ => ⟨S50000x1, .f32⟩
  | .hbm, ⟨62, _⟩ => ⟨S50000, .f32⟩
  | .local _ .vmem, ⟨0, _⟩ => ⟨S5000x32, .f32⟩
  | .local _ .vmem, ⟨1, _⟩ => ⟨S5000x32, .f32⟩
  | .local _ .vmem, ⟨2, _⟩ => ⟨S5000x32, .f32⟩
  | .local _ .vmem, ⟨3, _⟩ => ⟨S5000x32, .f32⟩
  | .local _ .vmem, ⟨4, _⟩ => ⟨S5000x1, .f32⟩
  | .local _ .vmem, ⟨5, _⟩ => ⟨S5000x1, .f32⟩
  | .local _ .vmem, ⟨6, _⟩ => ⟨S32x64, .f32⟩
  | .local _ .vmem, ⟨7, _⟩ => ⟨S32x64, .f32⟩
  | .local _ .vmem, ⟨8, _⟩ => ⟨S1x64, .f32⟩
  | .local _ .vmem, ⟨9, _⟩ => ⟨S5000x64, .bf16⟩
  | .local _ .vmem, ⟨10, _⟩ => ⟨S5000x64, .bf16⟩
  | .local _ .vmem, ⟨11, _⟩ => ⟨S5000x64, .f32⟩
  | .local _ .vmem, ⟨12, _⟩ => ⟨S5000x64, .f32⟩
  | .local _ .vmem, ⟨13, _⟩ => ⟨S5000x64, .bf16⟩
  | .local _ .vmem, ⟨14, _⟩ => ⟨S5000x64, .bf16⟩
  | .local _ .vmem, ⟨15, _⟩ => ⟨S5000x1, .f32⟩
  | .local _ .vmem, ⟨16, _⟩ => ⟨S5000x1, .f32⟩
  | .local _ .vmem, ⟨17, _⟩ => ⟨S64x64, .f32⟩
  | .local _ .vmem, ⟨18, _⟩ => ⟨S64x64, .f32⟩
  | .local _ .vmem, ⟨19, _⟩ => ⟨S1x64, .f32⟩
  | .local _ .vmem, ⟨20, _⟩ => ⟨S64x32, .f32⟩
  | .local _ .vmem, ⟨21, _⟩ => ⟨S1x32, .f32⟩
  | .local _ .vmem, ⟨22, _⟩ => ⟨S1x32, .f32⟩
  | .local _ .vmem, ⟨23, _⟩ => ⟨S1x1, .f32⟩
  | .local _ .vmem, ⟨24, _⟩ => ⟨S5000x1, .f32⟩
  | .local _ .vmem, ⟨25, _⟩ => ⟨S5000x1, .f32⟩
  | _, _ => ⟨S50000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_c : Ref sig .tc := ⟨.hbm, 27, rfl⟩
abbrev main_v12 : Ref sig .tc := ⟨.hbm, 28, rfl⟩
abbrev main_v13 : Ref sig .tc := ⟨.hbm, 29, rfl⟩
abbrev main_c_2 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_3 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_c_4 : Ref sig .tc := ⟨.hbm, 43, rfl⟩
abbrev main_v25 : Ref sig .tc := ⟨.hbm, 44, rfl⟩
abbrev main_v26 : Ref sig .tc := ⟨.hbm, 45, rfl⟩
abbrev main_c_5 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst_6 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg7_0 : Ref sig .tc := ⟨.vmem, 21, rfl⟩
abbrev cc1_stg8_0 : Ref sig .tc := ⟨.vmem, 22, rfl⟩
abbrev cc1_stg9_0 : Ref sig .tc := ⟨.vmem, 23, rfl⟩
abbrev cc1_stg10_0 : Ref sig .tc := ⟨.vmem, 24, rfl⟩
abbrev cc1_stg10_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem7_0 : DmaSem sig := 21
abbrev cc1_sem8_0 : DmaSem sig := 22
abbrev cc1_sem9_0 : DmaSem sig := 23
abbrev cc1_sem10_0 : DmaSem sig := 24
abbrev cc1_sem10_1 : DmaSem sig := 25

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S32x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x64 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S64x32 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x32 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x32 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x1 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S5000x1 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S50000 : S_.BroadcastsInDim S50000 (![] : Fin 0 → Fin S50000.rank)
  bcast_S1600000_S1600000x1_0 : S1600000.BroadcastsInDim S1600000x1 (![0] : Fin 1 → Fin S1600000x1.rank)
  shapeCasts_S50000_S50000x1 : S50000.ShapeCasts S50000x1
  bitsLt_bf16_f32 : FTy.bits .bf16 < FTy.bits .f32
  bcast_S_S50000x32 : S_.BroadcastsInDim S50000x32 (![] : Fin 0 → Fin S50000x32.rank)
  shapeCasts_S64_S1x64 : S64.ShapeCasts S1x64
  inb_S5000x32_S5000x32_0_0 : ∀ a, (![0, 0] : Fin 2 → Nat) a + S5000x32.size a ≤ S5000x32.size a
  h_S5000x32 : 0 < S5000x32.numel
  shapeCasts_S5000x32_S5000x32 : S5000x32.ShapeCasts S5000x32
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x32 : S5000x1.Broadcasts S5000x32
  inb_S32x64_S32x64_0_0 : ∀ a, (![0, 0] : Fin 2 → Nat) a + S32x64.size a ≤ S32x64.size a
  h_S32x64 : 0 < S32x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  reduces_S5000x64_S5000 : S5000x64.Reduces [1] S5000
  shapeCasts_S5000_S5000x1 : S5000.ShapeCasts S5000x1
  broadcasts_S5000x1_S5000x64 : S5000x1.Broadcasts S5000x64
  inb_S5000x64_S5000x64_0_0 : ∀ a, (![0, 0] : Fin 2 → Nat) a + S5000x64.size a ≤ S5000x64.size a
  h_S5000x64 : 0 < S5000x64.numel
  packedbf16_S5000x64_S5000x64_0_0 : (Rect.unit (s := S5000x64) ![0, 0] S5000x64.size inb_S5000x64_S5000x64_0_0).PackedRows (EltTy.packing .bf16)
  bcast_S_S50000x64 : S_.BroadcastsInDim S50000x64 (![] : Fin 0 → Fin S50000x64.rank)
  shapeCasts_S32x1_S1x32 : S32x1.ShapeCasts S1x32
  shapeCasts_S32_S1x32 : S32.ShapeCasts S1x32
  shapeCasts_S1_S1x1 : S1.ShapeCasts S1x1
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  reduces_S5000x32_S5000 : S5000x32.Reduces [1] S5000
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  shapeCasts_S50000x1_S50000 : S50000x1.ShapeCasts S50000
  scatter_S50000_S1600000x1_S1600000_n_0_0_1_wf : ScatterDims.WF S50000 S1600000x1 S1600000 [] [0] [0] 1
  gather_S50000x32_S1600000x1_S1600000x32_1_0_n_n_0_1_132_wf : GatherDims.WF S50000x32 S1600000x1 S1600000x32 [1] [0] [] [0] [] 1 ![1, 32]
  scatter_S50000x32_S1600000x1_S1600000x32_1_0_0_1_wf : ScatterDims.WF S50000x32 S1600000x1 S1600000x32 [1] [0] [0] 1
  dot_S5000x32_S32x64_S5000x64_1_0_0_1_n_n_wf : DotDims.WF S5000x32 S32x64 S5000x64 [1] [0] [0] [1] [] []
  gather_S50000x64_S1600000x1_S1600000x64_1_0_n_n_0_1_164_wf : GatherDims.WF S50000x64 S1600000x1 S1600000x64 [1] [0] [] [0] [] 1 ![1, 64]
  scatter_S50000x64_S1600000x1_S1600000x64_1_0_0_1_wf : ScatterDims.WF S50000x64 S1600000x1 S1600000x64 [1] [0] [0] 1
  dot_S5000x64_S64x64_S5000x64_1_0_0_1_n_n_wf : DotDims.WF S5000x64 S64x64 S5000x64 [1] [0] [0] [1] [] []
  dot_S5000x64_S64x32_S5000x32_1_0_0_1_n_n_wf : DotDims.WF S5000x64 S64x32 S5000x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x32.size a ≤ S50000x32.size a
  hwx0_0 : ∀ i : grid0.Coords, EltTy.bits .f32 = 32 ∨ (Rect.block (s := S50000x32) S5000x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x32.size a ≤ S50000x32.size a
  hwx0_1 : ∀ i : grid0.Coords, EltTy.bits .f32 = 32 ∨ (Rect.block (s := S50000x32) S5000x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x64.size a ≤ S32x64.size a
  hwx0_3 : ∀ i : grid0.Coords, EltTy.bits .f32 = 32 ∨ (Rect.block (s := S32x64) S32x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32x64.size a ≤ S32x64.size a
  hwx0_4 : ∀ i : grid0.Coords, EltTy.bits .f32 = 32 ∨ (Rect.block (s := S32x64) S32x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x64.size a ≤ S50000x64.size a
  hwx0_6 : ∀ i : grid0.Coords, EltTy.bits .bf16 = 32 ∨ (Rect.block (s := S50000x64) S5000x64.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S50000x64.size a
  hwx1_1 : ∀ i : grid1.Coords, EltTy.bits .bf16 = 32 ∨ (Rect.block (s := S50000x64) S5000x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S64x32.size a ≤ S64x32.size a
  hwx1_6 : ∀ i : grid1.Coords, EltTy.bits .f32 = 32 ∨ (Rect.block (s := S64x32) S64x32.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x32.size a ≤ S1x32.size a
  hwx1_7 : ∀ i : grid1.Coords, EltTy.bits .f32 = 32 ∨ (Rect.block (s := S1x32) S1x32.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x32.size a ≤ S1x32.size a
  hwx1_8 : ∀ i : grid1.Coords, EltTy.bits .f32 = 32 ∨ (Rect.block (s := S1x32) S1x32.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x1.size a ≤ S1x1.size a
  hwx1_9 : ∀ i : grid1.Coords, EltTy.bits .f32 = 32 ∨ (Rect.block (s := S1x1) S1x1.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S5000x1.size a ≤ S50000x1.size a
  hwx1_10 : ∀ i : grid1.Coords, EltTy.bits .f32 = 32 ∨ (Rect.block (s := S50000x1) S5000x1.size (cc1_transform_10 i) (hinb1_10 i)).WholeWords (EltTy.packing .f32)

variable [Facts₀]

def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def gather_S50000x32_S1600000x1_S1600000x32_1_0_n_n_0_1_132 : GatherDims S50000x32 S1600000x1 S1600000x32 where
  offsetDims := [1]
  collapsedSliceDims := [0]
  operandBatchingDims := []
  startIndicesBatchingDims := []
  startIndexMap := [0]
  indexVectorDim := 1
  sliceSizes := ![1, 32]
  wf := gather_S50000x32_S1600000x1_S1600000x32_1_0_n_n_0_1_132_wf
def scatter_S50000x32_S1600000x1_S1600000x32_1_0_0_1 : ScatterDims S50000x32 S1600000x1 S1600000x32 where
  updateWindowDims := [1]
  insertedWindowDims := [0]
  scatterDimsToOperandDims := [0]
  indexVectorDim := 1
  wf := scatter_S50000x32_S1600000x1_S1600000x32_1_0_0_1_wf
def dot_S5000x32_S32x64_S5000x64_1_0_0_1_n_n : DotDims S5000x32 S32x64 S5000x64 where
  lhsContracting := [1]
  rhsContracting := [0]
  lhsNonContracting := [0]
  rhsNonContracting := [1]
  lhsBatch := []
  rhsBatch := []
  wf := dot_S5000x32_S32x64_S5000x64_1_0_0_1_n_n_wf
def gather_S50000x64_S1600000x1_S1600000x64_1_0_n_n_0_1_164 : GatherDims S50000x64 S1600000x1 S1600000x64 where
  offsetDims := [1]
  collapsedSliceDims := [0]
  operandBatchingDims := []
  startIndicesBatchingDims := []
  startIndexMap := [0]
  indexVectorDim := 1
  sliceSizes := ![1, 64]
  wf := gather_S50000x64_S1600000x1_S1600000x64_1_0_n_n_0_1_164_wf
def scatter_S50000x64_S1600000x1_S1600000x64_1_0_0_1 : ScatterDims S50000x64 S1600000x1 S1600000x64 where
  updateWindowDims := [1]
  insertedWindowDims := [0]
  scatterDimsToOperandDims := [0]
  indexVectorDim := 1
  wf := scatter_S50000x64_S1600000x1_S1600000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf

abbrev win0_0 : Pipeline.Window sig grid0 :=
  Pipeline.Window.ofSpec (Memref.whole main_v22) S5000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v10) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S32x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S32x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v24) S5000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v35) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v10) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v37) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg8) S64x32.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v38) S1x32.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v36) S1x32.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v39) S1x1.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v40) S5000x1.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

class Facts : Prop extends Facts₀ where

variable [Facts]
-- ==== ReferenceIdeal.lean ====
abbrev S50000x32 : Shape := ⟨2, ![50000, 32]⟩
abbrev S2x1600000 : Shape := ⟨2, ![2, 1600000]⟩
abbrev S32x64 : Shape := ⟨2, ![32, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x32 : Shape := ⟨2, ![1600000, 32]⟩
abbrev S50000x1 : Shape := ⟨2, ![50000, 1]⟩
abbrev S50000x64 : Shape := ⟨2, ![50000, 64]⟩
abbrev S1x64 : Shape := ⟨2, ![1, 64]⟩
abbrev S50000 : Shape := ⟨1, ![50000]⟩
abbrev S1600000x64 : Shape := ⟨2, ![1600000, 64]⟩
abbrev S1x32 : Shape := ⟨2, ![1, 32]⟩
abbrev S1x1 : Shape := ⟨2, ![1, 1]⟩

abbrev nBuf : Space → Nat
  | .hbm => 111
  | .vmem => 0
  | .smem => 0
  | _ => 0

abbrev bufTy : (tb : Table) → Fin (tcTables nBuf tb) → BufTy
  | .hbm, ⟨0, _⟩ => ⟨S50000x32, .f32⟩
  | .hbm, ⟨1, _⟩ => ⟨S2x1600000, .i32⟩
  | .hbm, ⟨2, _⟩ => ⟨S32x64, .f32⟩
  | .hbm, ⟨3, _⟩ => ⟨S64, .f32⟩
  | .hbm, ⟨4, _⟩ => ⟨S32x64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64x32, .f32⟩
  | .hbm, ⟨9, _⟩ => ⟨S32, .f32⟩
  | .hbm, ⟨10, _⟩ => ⟨S32x1, .f32⟩
  | .hbm, ⟨11, _⟩ => ⟨S1, .f32⟩
  | .hbm, ⟨12, _⟩ => ⟨S1x1600000, .i32⟩
  | .hbm, ⟨13, _⟩ => ⟨S1600000, .i32⟩
  | .hbm, ⟨14, _⟩ => ⟨S1x1600000, .i32⟩
  | .hbm, ⟨15, _⟩ => ⟨S1600000, .i32⟩
  | .hbm, ⟨16, _⟩ => ⟨S_, .i32⟩
  | .hbm, ⟨17, _⟩ => ⟨S1600000, .i32⟩
  | .hbm, ⟨18, _⟩ => ⟨S1600000, .i1⟩
  | .hbm, ⟨19, _⟩ => ⟨S_, .i32⟩
  | .hbm, ⟨20, _⟩ => ⟨S1600000, .i32⟩
  | .hbm, ⟨21, _⟩ => ⟨S1600000, .i32⟩
  | .hbm, ⟨22, _⟩ => ⟨S1600000, .i32⟩
  | .hbm, ⟨23, _⟩ => ⟨S1600000x1, .i32⟩
  | .hbm, ⟨24, _⟩ => ⟨S1600000x32, .f32⟩
  | .hbm, ⟨25, _⟩ => ⟨S_, .f32⟩
  | .hbm, ⟨26, _⟩ => ⟨S50000x32, .f32⟩
  | .hbm, ⟨27, _⟩ => ⟨S1600000x1, .i32⟩
  | .hbm, ⟨28, _⟩ => ⟨S50000x32, .f32⟩
  | .hbm, ⟨29, _⟩ => ⟨S_, .f32⟩
  | .hbm, ⟨30, _⟩ => ⟨S1600000x1, .f32⟩
  | .hbm, ⟨31, _⟩ => ⟨S_, .f32⟩
  | .hbm, ⟨32, _⟩ => ⟨S50000x1, .f32⟩
  | .hbm, ⟨33, _⟩ => ⟨S1600000x1, .i32⟩
  | .hbm, ⟨34, _⟩ => ⟨S50000x1, .f32⟩
  | .hbm, ⟨35, _⟩ => ⟨S_, .f32⟩
  | .hbm, ⟨36, _⟩ => ⟨S50000x1, .f32⟩
  | .hbm, ⟨37, _⟩ => ⟨S50000x1, .f32⟩
  | .hbm, ⟨38, _⟩ => ⟨S50000x32, .f32⟩
  | .hbm, ⟨39, _⟩ => ⟨S50000x32, .f32⟩
  | .hbm, ⟨40, _⟩ => ⟨S50000x64, .f32⟩
  | .hbm, ⟨41, _⟩ => ⟨S50000x64, .f32⟩
  | .hbm, ⟨42, _⟩ => ⟨S50000x64, .f32⟩
  | .hbm, ⟨43, _⟩ => ⟨S1x64, .f32⟩
  | .hbm, ⟨44, _⟩ => ⟨S50000x64, .f32⟩
  | .hbm, ⟨45, _⟩ => ⟨S50000x64, .f32⟩
  | .hbm, ⟨46, _⟩ => ⟨S50000x64, .f32⟩
  | .hbm, ⟨47, _⟩ => ⟨S_, .f32⟩
  | .hbm, ⟨48, _⟩ => ⟨S50000, .f32⟩
  | .hbm, ⟨49, _⟩ => ⟨S50000x1, .f32⟩
  | .hbm, ⟨50, _⟩ => ⟨S50000x1, .f32⟩
  | .hbm, ⟨51, _⟩ => ⟨S_, .f32⟩
  | .hbm, ⟨52, _⟩ => ⟨S50000x1, .f32⟩
  | .hbm, ⟨53, _⟩ => ⟨S50000x1, .f32⟩
  | .hbm, ⟨54, _⟩ => ⟨S50000x64, .f32⟩
  | .hbm, ⟨55, _⟩ => ⟨S50000x64, .f32⟩
  | .hbm, ⟨56, _⟩ => ⟨S_, .f32⟩
  | .hbm, ⟨57, _⟩ => ⟨S50000x64, .f32⟩
  | .hbm, ⟨58, _⟩ => ⟨S50000x64, .f32⟩
  | .hbm, ⟨59, _⟩ => ⟨S_, .i32⟩
  | .hbm, ⟨60, _⟩ => ⟨S1600000, .i32⟩
  | .hbm, ⟨61, _⟩ => ⟨S1600000, .i1⟩
  | .hbm, ⟨62, _⟩ => ⟨S_, .i32⟩
  | .hbm, ⟨63, _⟩ => ⟨S1600000, .i32⟩
  | .hbm, ⟨64, _⟩ => ⟨S1600000, .i32⟩
  | .hbm, ⟨65, _⟩ => ⟨S1600000, .i32⟩
  | .hbm, ⟨66, _⟩ => ⟨S1600000x1, .i32⟩
  | .hbm, ⟨67, _⟩ => ⟨S1600000x64, .f32⟩
  | .hbm, ⟨68, _⟩ => ⟨S_, .f32⟩
  | .hbm, ⟨69, _⟩ => ⟨S50000x64, .f32⟩
  | .hbm, ⟨70, _⟩ => ⟨S1600000x1, .i32⟩
  | .hbm, ⟨71, _⟩ => ⟨S50000x64, .f32⟩
  | .hbm, ⟨72, _⟩ => ⟨S_, .f32⟩
  | .hbm, ⟨73, _⟩ => ⟨S1600000x1, .f32⟩
  | .hbm, ⟨74, _⟩ => ⟨S_, .f32⟩
  | .hbm, ⟨75, _⟩ => ⟨S50000x1, .f32⟩
  | .hbm, ⟨76, _⟩ => ⟨S1600000x1, .i32⟩
  | .hbm, ⟨77, _⟩ => ⟨S50000x1, .f32⟩
  | .hbm, ⟨78, _⟩ => ⟨S_, .f32⟩
  | .hbm, ⟨79, _⟩ => ⟨S50000x1, .f32⟩
  | .hbm, ⟨80, _⟩ => ⟨S50000x1, .f32⟩
  | .hbm, ⟨81, _⟩ => ⟨S50000x64, .f32⟩
  | .hbm, ⟨82, _⟩ => ⟨S50000x64, .f32⟩
  | .hbm, ⟨83, _⟩ => ⟨S50000x64, .f32⟩
  | .hbm, ⟨84, _⟩ => ⟨S50000x64, .f32⟩
  | .hbm, ⟨85, _⟩ => ⟨S50000x64, .f32⟩
  | .hbm, ⟨86, _⟩ => ⟨S1x64, .f32⟩
  | .hbm, ⟨87, _⟩ => ⟨S50000x64, .f32⟩
  | .hbm, ⟨88, _⟩ => ⟨S50000x64, .f32⟩
  | .hbm, ⟨89, _⟩ => ⟨S50000x64, .f32⟩
  | .hbm, ⟨90, _⟩ => ⟨S_, .f32⟩
  | .hbm, ⟨91, _⟩ => ⟨S50000, .f32⟩
  | .hbm, ⟨92, _⟩ => ⟨S50000x1, .f32⟩
  | .hbm, ⟨93, _⟩ => ⟨S50000x1, .f32⟩
  | .hbm, ⟨94, _⟩ => ⟨S_, .f32⟩
  | .hbm, ⟨95, _⟩ => ⟨S50000x1, .f32⟩
  | .hbm, ⟨96, _⟩ => ⟨S50000x1, .f32⟩
  | .hbm, ⟨97, _⟩ => ⟨S50000x64, .f32⟩
  | .hbm, ⟨98, _⟩ => ⟨S50000x64, .f32⟩
  | .hbm, ⟨99, _⟩ => ⟨S50000x32, .f32⟩
  | .hbm, ⟨100, _⟩ => ⟨S1x32, .f32⟩
  | .hbm, ⟨101, _⟩ => ⟨S50000x32, .f32⟩
  | .hbm, ⟨102, _⟩ => ⟨S50000x32, .f32⟩
  | .hbm, ⟨103, _⟩ => ⟨S_, .f32⟩
  | .hbm, ⟨104, _⟩ => ⟨S50000x32, .f32⟩
  | .hbm, ⟨105, _⟩ => ⟨S50000x32, .f32⟩
  | .hbm, ⟨106, _⟩ => ⟨S50000x1, .f32⟩
  | .hbm, ⟨107, _⟩ => ⟨S1x1, .f32⟩
  | .hbm, ⟨108, _⟩ => ⟨S50000x1, .f32⟩
  | .hbm, ⟨109, _⟩ => ⟨S50000x1, .f32⟩
  | .hbm, ⟨110, _⟩ => ⟨S50000, .f32⟩
  | _, _ => ⟨S50000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_1 : Ref sig .tc := ⟨.hbm, 29, rfl⟩
abbrev main_v14 : Ref sig .tc := ⟨.hbm, 30, rfl⟩
abbrev main_cst_2 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_call0_v0 : Ref sig .tc := ⟨.hbm, 46, rfl⟩
abbrev main_call0_cst : Ref sig .tc := ⟨.hbm, 47, rfl⟩
abbrev main_call0_v1 : Ref sig .tc := ⟨.hbm, 48, rfl⟩
abbrev main_call0_v2 : Ref sig .tc := ⟨.hbm, 49, rfl⟩
abbrev main_v28 : Ref sig .tc := ⟨.hbm, 50, rfl⟩
abbrev main_cst_4 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_call1_cst : Ref sig .tc := ⟨.hbm, 56, rfl⟩
abbrev main_call1_v0 : Ref sig .tc := ⟨.hbm, 57, rfl⟩
abbrev main_v33 : Ref sig .tc := ⟨.hbm, 58, rfl⟩
abbrev main_c_5 : Ref sig .tc := ⟨.hbm, 59, rfl⟩
abbrev main_v34 : Ref sig .tc := ⟨.hbm, 60, rfl⟩
abbrev main_v35 : Ref sig .tc := ⟨.hbm, 61, rfl⟩
abbrev main_c_6 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_cst_7 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_cst_8 : Ref sig .tc := ⟨.hbm, 72, rfl⟩
abbrev main_v44 : Ref sig .tc := ⟨.hbm, 73, rfl⟩
abbrev main_cst_9 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_cst_10 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_call2_v0 : Ref sig .tc := ⟨.hbm, 89, rfl⟩
abbrev main_call2_cst : Ref sig .tc := ⟨.hbm, 90, rfl⟩
abbrev main_call2_v1 : Ref sig .tc := ⟨.hbm, 91, rfl⟩
abbrev main_call2_v2 : Ref sig .tc := ⟨.hbm, 92, rfl⟩
abbrev main_v58 : Ref sig .tc := ⟨.hbm, 93, rfl⟩
abbrev main_cst_11 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_call3_cst : Ref sig .tc := ⟨.hbm, 103, rfl⟩
abbrev main_call3_v0 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S50000x32 : S_.BroadcastsInDim S50000x32 (![] : Fin 0 → Fin S50000x32.rank)
  bcast_S_S1600000x1 : S_.BroadcastsInDim S1600000x1 (![] : Fin 0 → Fin S1600000x1.rank)
  bcast_S_S50000x1 : S_.BroadcastsInDim S50000x1 (![] : Fin 0 → Fin S50000x1.rank)
  bcast_S50000x1_S50000x32_0_1 : S50000x1.BroadcastsInDim S50000x32 (![0, 1] : Fin 2 → Fin S50000x32.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  reducesTo_S50000x64_S50000_d1 : S50000x64.ReducesTo [1] S50000
  h_S_ : 0 < S_.numel
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  bcast_S_S50000x64 : S_.BroadcastsInDim S50000x64 (![] : Fin 0 → Fin S50000x64.rank)
  bcast_S32_S1x32_1 : S32.BroadcastsInDim S1x32 (![1] : Fin 1 → Fin S1x32.rank)
  bcast_S1x32_S50000x32_0_1 : S1x32.BroadcastsInDim S50000x32 (![0, 1] : Fin 2 → Fin S50000x32.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  shapeCasts_S50000x1_S50000 : S50000x1.ShapeCasts S50000
  gather_S50000x32_S1600000x1_S1600000x32_1_0_n_n_0_1_132_wf : GatherDims.WF S50000x32 S1600000x1 S1600000x32 [1] [0] [] [0] [] 1 ![1, 32]
  scatter_S50000x32_S1600000x1_S1600000x32_1_0_0_1_wf : ScatterDims.WF S50000x32 S1600000x1 S1600000x32 [1] [0] [0] 1
  scatter_S50000x1_S1600000x1_S1600000x1_1_0_0_1_wf : ScatterDims.WF S50000x1 S1600000x1 S1600000x1 [1] [0] [0] 1
  dot_S50000x32_S32x64_S50000x64_1_0_0_1_n_n_wf : DotDims.WF S50000x32 S32x64 S50000x64 [1] [0] [0] [1] [] []
  gather_S50000x64_S1600000x1_S1600000x64_1_0_n_n_0_1_164_wf : GatherDims.WF S50000x64 S1600000x1 S1600000x64 [1] [0] [] [0] [] 1 ![1, 64]
  scatter_S50000x64_S1600000x1_S1600000x64_1_0_0_1_wf : ScatterDims.WF S50000x64 S1600000x1 S1600000x64 [1] [0] [0] 1
  dot_S50000x64_S64x64_S50000x64_1_0_0_1_n_n_wf : DotDims.WF S50000x64 S64x64 S50000x64 [1] [0] [0] [1] [] []
  dot_S50000x64_S64x32_S50000x32_1_0_0_1_n_n_wf : DotDims.WF S50000x64 S64x32 S50000x32 [1] [0] [0] [1] [] []
  dot_S50000x32_S32x1_S50000x1_1_0_0_1_n_n_wf : DotDims.WF S50000x32 S32x1 S50000x1 [1] [0] [0] [1] [] []

variable [Facts₀]

def gather_S50000x32_S1600000x1_S1600000x32_1_0_n_n_0_1_132 : GatherDims S50000x32 S1600000x1 S1600000x32 where
  offsetDims := [1]
  collapsedSliceDims := [0]
  operandBatchingDims := []
  startIndicesBatchingDims := []
  startIndexMap := [0]
  indexVectorDim := 1
  sliceSizes := ![1, 32]
  wf := gather_S50000x32_S1600000x1_S1600000x32_1_0_n_n_0_1_132_wf
def scatter_S50000x32_S1600000x1_S1600000x32_1_0_0_1 : ScatterDims S50000x32 S1600000x1 S1600000x32 where
  updateWindowDims := [1]
  insertedWindowDims := [0]
  scatterDimsToOperandDims := [0]
  indexVectorDim := 1
  wf := scatter_S50000x32_S1600000x1_S1600000x32_1_0_0_1_wf
def scatter_S50000x1_S1600000x1_S1600000x1_1_0_0_1 : ScatterDims S50000x1 S1600000x1 S1600000x1 where
  updateWindowDims := [1]
  insertedWindowDims := [0]
  scatterDimsToOperandDims := [0]
  indexVectorDim := 1
  wf := scatter_S50000x1_S1600000x1_S1600000x1_1_0_0_1_wf
def dot_S50000x32_S32x64_S50000x64_1_0_0_1_n_n : DotDims S50000x32 S32x64 S50000x64 where
  lhsContracting := [1]
  rhsContracting := [0]
  lhsNonContracting := [0]
  rhsNonContracting := [1]
  lhsBatch := []
  rhsBatch := []
  wf := dot_S50000x32_S32x64_S50000x64_1_0_0_1_n_n_wf
def gather_S50000x64_S1600000x1_S1600000x64_1_0_n_n_0_1_164 : GatherDims S50000x64 S1600000x1 S1600000x64 where
  offsetDims := [1]
  collapsedSliceDims := [0]
  operandBatchingDims := []
  startIndicesBatchingDims := []
  startIndexMap := [0]
  indexVectorDim := 1
  sliceSizes := ![1, 64]
  wf := gather_S50000x64_S1600000x1_S1600000x64_1_0_n_n_0_1_164_wf
def scatter_S50000x64_S1600000x1_S1600000x64_1_0_0_1 : ScatterDims S50000x64 S1600000x1 S1600000x64 where
  updateWindowDims := [1]
  insertedWindowDims := [0]
  scatterDimsToOperandDims := [0]
  indexVectorDim := 1
  wf := scatter_S50000x64_S1600000x1_S1600000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def dot_S50000x64_S64x32_S50000x32_1_0_0_1_n_n : DotDims S50000x64 S64x32 S50000x32 where
  lhsContracting := [1]
  rhsContracting := [0]
  lhsNonContracting := [0]
  rhsNonContracting := [1]
  lhsBatch := []
  rhsBatch := []
  wf := dot_S50000x64_S64x32_S50000x32_1_0_0_1_n_n_wf
def dot_S50000x32_S32x1_S50000x1_1_0_0_1_n_n : DotDims S50000x32 S32x1 S50000x1 where
  lhsContracting := [1]
  rhsContracting := [0]
  lhsNonContracting := [0]
  rhsNonContracting := [1]
  lhsBatch := []
  rhsBatch := []
  wf := dot_S50000x32_S32x1_S50000x1_1_0_0_1_n_n_wf

class Facts : Prop extends Facts₀ where

variable [Facts]
-- ==== Proof.KernelRun.lean ====
/-
  The idealized kernel's run with its result named. Every weakly fair execution of @main ends, without a fault,
  with the argument arrays as launched and with the result array at the contents the last stretch of host
  operations leaves: the fold of the buffer contents through @main's five segments (host operations, the first
  pallas_call, host operations, the second pallas_call, the closing reshape), read at the result's buffer.
-/
import proofs.«178465_j15985868275842_2_alg».proof.Proof.Gen.KernelIdeal.Frame

set_option maxRecDepth 16384

noncomputable section

namespace Cert.KernelIdeal.ResultRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- The run of @main over its five segments, the final thread state read against the final memory: the result's
    buffer holds what the closing host operations leave, and each argument is as launched. -/
theorem run_result : θ_run defs (onTc (τ := τ) (main (F := F))) ⟨m, fun _ => 0, ρ⟩ (fun r => ∀ c : Dev nD,
      r.2.mem ((c.tc : Thread nD τ).loc main_v41) = W5 m ρ c (Proc.devRef .tc main_v41)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v41 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c),
       (h c _ (mem_uc main_arg9 (by decide))).trans (W5_main_arg9 m ρ c),
       (h c _ (mem_uc main_arg10 (by decide))).trans (W5_main_arg10 m ρ c),
       (h c _ (mem_uc main_arg11 (by decide))).trans (W5_main_arg11 m ρ c)⟩)

end Cert.KernelIdeal.ResultRun

end
-- ==== Proof.Spec.lean ====
/-
  The two stages of the network, row by row, on the extended reals.

  A node's row is combined from its aggregated neighbour row `a` (divided by the node's in-degree count `c`),
  its own row `x`, two weight matrices and a bias:  o j = ∑ k, (a k / c) · wl k j  +  ∑ k, x k · wr k j  +  b j.
  The row is then divided by its Euclidean norm, the norm floored at the f32 word of 1e-12.
  Stage 0 clamps the normalized row at zero from below.
  Stage 1 feeds the normalized row through a 64→32 linear map with bias, clamps at zero, and takes the inner
  product with one weight column, plus a scalar bias: the node's logit.

  Everything here is a function of one node's rows only, so a block of rows and the whole array of rows are read by
  the same function.
-/
import Idealize.ShloMosaic.PureOps.Ideal
import Idealize.ShloMosaic.PureOps.Ideal.Laws
import Idealize.ShloMosaic.Lib.ValueIdx

noncomputable section

open scoped BigOperators

namespace Cert.Sage

open Idealize.ShloMosaic

/-- The floor of a row's norm: the f32 word of 1e-12, read as the extended real it encodes. -/
abbrev floorWord : EReal := Ideal.ofBits .f32 0x2B8CBCCC#32
/-- The f32 zero word, read as the extended real it encodes. -/
abbrev zeroWord : EReal := Ideal.ofBits .f32 0x00000000#32

/-- The combined row before normalization: mean of the neighbours through `wl`, the node's own row through `wr`,
    plus the bias. -/
def combineRow {K H : Nat} (a x : Fin K → EReal) (c : EReal) (wl wr : Fin K → Fin H → EReal) (b : Fin H → EReal)
    (j : Fin H) : EReal :=
  (∑ k : Fin K, Ideal.div (a k) c * wl k j) + (∑ k : Fin K, x k * wr k j) + b j

/-- A row divided by its norm, the norm floored. -/
def normRow {H : Nat} (o : Fin H → EReal) (j : Fin H) : EReal :=
  Ideal.div (o j) (max (Ideal.sqrt (∑ j' : Fin H, o j' * o j')) floorWord)

/-- Stage 0 at one node: combine, normalize, clamp at zero. -/
def stage0Row {K H : Nat} (a x : Fin K → EReal) (c : EReal) (wl wr : Fin K → Fin H → EReal) (b : Fin H → EReal)
    (j : Fin H) : EReal :=
  max (normRow (combineRow a x c wl wr b) j) zeroWord

/-- Stage 1 at one node: combine, normalize, the hidden layer clamped at zero, the inner product with the last
    weight column, plus the last bias. -/
def stage1Row {K H C : Nat} (a x : Fin K → EReal) (c : EReal) (wl wr : Fin K → Fin H → EReal) (b : Fin H → EReal)
    (wc : Fin H → Fin C → EReal) (bc : Fin C → EReal) (wo : Fin C → EReal) (bo : EReal) : EReal :=
  (∑ q : Fin C, max ((∑ k : Fin H, normRow (combineRow a x c wl wr b) k * wc k q) + bc q) zeroWord * wo q) + bo

end Cert.Sage

end
-- ==== Proof.LibKeepdims.lean ====
/-
  Two layout operations read at an index given by coordinates, for the column that a sum over the LAST axis with
  `keepdims=True` leaves: a vector `[a]` re-shaped to a column `[a, 1]`, and a column `[a, 1]` broadcast along its
  unit axis to a matrix `[a, b]`. (The row forms `[a] → [1, a]` and `[1, b] → [a, b]` are in the library's
  Lib/ValueLayout.lean; these are their transposes, for any extents and any element type.)
-/
import Idealize.ShloMosaic.Lib.Pipeline.Value
import Idealize.ShloMosaic.Lib.ValueIdx

namespace Cert.LibKeepdims

open Idealize.ShloMosaic Idealize.ShloMosaic.ValueIdx

variable {α : Type}

/-- An `[a]` array cast to a column `[a, 1]` reads, at `(i, u)`, the operand at `i`, whatever the unit coordinate `u`:
    both indices have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry in row `p`: the row coordinate is kept
    (also when `a = 1`, where it can only be `0`), the coordinate on the unit axis is `0`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims
-- ==== Proof.KernelRows.lean ====
/-
  The two kernel bodies at one entry of their output block, on the extended reals.

  A body works on a block of 5000 node rows. Its stored value at (p, q) depends only on row p of the row-shaped
  operands and on the whole of the small operands (weights, biases): it is the stage's row function of those rows.
  The matrix products into a zero accumulator are plain sums over the contracted axis, the lane reductions sums along
  a row, the format changes identities, the [5000, 1] column broadcasts read the column's entry of the same row, the
  [1, n] row broadcasts read the row's entry of the same column.
-/
import proofs.«178465_j15985868275842_2_alg».proof.Proof.Gen.KernelIdeal.Skeleton
import proofs.«178465_j15985868275842_2_alg».proof.Proof.Spec
import proofs.«178465_j15985868275842_2_alg».proof.Proof.LibKeepdims
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Rows

open Idealize.ShloMosaic Idealize.ShloMosaic.ValueIdx
open Cert.KernelIdeal Cert.KernelIdeal.Gen Cert.Sage Cert.LibKeepdims

/-- A square root of a vector at an index is the square root of the entry. -/
theorem sqrt_apply {s : Shape} {φ : FTy} (a : FVec Ideal s φ) (i : s.Idx) : sqrt a i = Ideal.sqrt (a i) := rfl

/-! ## The matrix products of the bodies -/

/-- The product's left operand index at output index `i`: row `i 0` … -/
theorem lhs0_a (i : S5000x64.Idx) (q : dot_S5000x32_S32x64_S5000x64_1_0_0_1_n_n.contr.Idx) : (dot_S5000x32_S32x64_S5000x64_1_0_0_1_n_n.lhsIdx i q 0).val = (i 0).val := by
  unfold DotDims.lhsIdx
  rw [dif_neg (show ¬(0 : Fin S5000x32.rank) ∈ dot_S5000x32_S32x64_S5000x64_1_0_0_1_n_n.lhsBatch by decide), dif_pos (show (0 : Fin S5000x32.rank) ∈ dot_S5000x32_S32x64_S5000x64_1_0_0_1_n_n.lhsNonContracting by decide)]
  rfl
/-- … and the contracted coordinate on its second axis. -/
theorem lhs1_a (i : S5000x64.Idx) (q : dot_S5000x32_S32x64_S5000x64_1_0_0_1_n_n.contr.Idx) : (dot_S5000x32_S32x64_S5000x64_1_0_0_1_n_n.lhsIdx i q 1).val = (q ⟨0, by decide⟩).val :=
  dot_S5000x32_S32x64_S5000x64_1_0_0_1_n_n.lhsIdx_val_of_single rfl i q
/-- The right operand index: the contracted coordinate on its first axis … -/
theorem rhs0_a (i : S5000x64.Idx) (q : dot_S5000x32_S32x64_S5000x64_1_0_0_1_n_n.contr.Idx) : (dot_S5000x32_S32x64_S5000x64_1_0_0_1_n_n.rhsIdx i q 0).val = (q ⟨0, by decide⟩).val :=
  dot_S5000x32_S32x64_S5000x64_1_0_0_1_n_n.rhsIdx_val_of_single rfl i q
/-- … and column `i 1`. -/
theorem rhs1_a (i : S5000x64.Idx) (q : dot_S5000x32_S32x64_S5000x64_1_0_0_1_n_n.contr.Idx) : (dot_S5000x32_S32x64_S5000x64_1_0_0_1_n_n.rhsIdx i q 1).val = (i 1).val := by
  unfold DotDims.rhsIdx
  rw [dif_neg (show ¬(1 : Fin S32x64.rank) ∈ dot_S5000x32_S32x64_S5000x64_1_0_0_1_n_n.rhsBatch by decide), dif_pos (show (1 : Fin S32x64.rank) ∈ dot_S5000x32_S32x64_S5000x64_1_0_0_1_n_n.rhsNonContracting by decide)]
  rfl
/-- The [5000, 32] × [32, 64] product into a zero accumulator, at (p, q): the sum over k of l (p, k) · r (k, q). -/
theorem matmul_a_apply {φ₁ φ₂ : FTy} (l : FVec Ideal S5000x32 φ₁) (r : FVec Ideal S32x64 φ₂) (p : Fin 5000) (q : Fin 64) :
    matmul dot_S5000x32_S32x64_S5000x64_1_0_0_1_n_n none l r (constant (F := Ideal) S5000x64 .f32 0x00000000#32) (ix2 p q) = ∑ k : Fin 32, l (ix2 p k) * r (ix2 k q) := by
  refine (Ideal.matmul_constant_zero_apply dot_S5000x32_S32x64_S5000x64_1_0_0_1_n_n none l r (ix2 p q)).trans ?_
  rw [← Equiv.sum_comp (ValueIdx.contrEquiv1 dot_S5000x32_S32x64_S5000x64_1_0_0_1_n_n 32 rfl rfl).symm]
  refine Finset.sum_congr rfl fun k _ => ?_
  have hk := ValueIdx.contrEquiv1_symm_val dot_S5000x32_S32x64_S5000x64_1_0_0_1_n_n 32 rfl rfl k
  have el : dot_S5000x32_S32x64_S5000x64_1_0_0_1_n_n.lhsIdx (ix2 p q) ((ValueIdx.contrEquiv1 dot_S5000x32_S32x64_S5000x64_1_0_0_1_n_n 32 rfl rfl).symm k) = ix2 p k := funext fun a => Fin.ext (by
    match a with
    | ⟨0, _⟩ => exact lhs0_a _ _
    | ⟨1, _⟩ => exact (lhs1_a _ _).trans hk)
  have er : dot_S5000x32_S32x64_S5000x64_1_0_0_1_n_n.rhsIdx (ix2 p q) ((ValueIdx.contrEquiv1 dot_S5000x32_S32x64_S5000x64_1_0_0_1_n_n 32 rfl rfl).symm k) = ix2 k q := funext fun a => Fin.ext (by
    match a with
    | ⟨0, _⟩ => exact (rhs0_a _ _).trans hk
    | ⟨1, _⟩ => exact rhs1_a _ _)
  rw [el, er]

/-- The product's left operand index at output index `i`: row `i 0` … -/
theorem lhs0_b (i : S5000x64.Idx) (q : dot_S5000x64_S64x64_S5000x64_1_0_0_1_n_n.contr.Idx) : (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
/-- … and the contracted coordinate on its second axis. -/
theorem lhs1_b (i : S5000x64.Idx) (q : dot_S5000x64_S64x64_S5000x64_1_0_0_1_n_n.contr.Idx) : (dot_S5000x64_S64x64_S5000x64_1_0_0_1_n_n.lhsIdx i q 1).val = (q ⟨0, by decide⟩).val :=
  dot_S5000x64_S64x64_S5000x64_1_0_0_1_n_n.lhsIdx_val_of_single rfl i q
/-- The right operand index: the contracted coordinate on its first axis … -/
theorem rhs0_b (i : S5000x64.Idx) (q : dot_S5000x64_S64x64_S5000x64_1_0_0_1_n_n.contr.Idx) : (dot_S5000x64_S64x64_S5000x64_1_0_0_1_n_n.rhsIdx i q 0).val = (q ⟨0, by decide⟩).val :=
  dot_S5000x64_S64x64_S5000x64_1_0_0_1_n_n.rhsIdx_val_of_single rfl i q
/-- … and column `i 1`. -/
theorem rhs1_b (i : S5000x64.Idx) (q : dot_S5000x64_S64x64_S5000x64_1_0_0_1_n_n.contr.Idx) : (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl
/-- The [5000, 64] × [64, 64] product into a zero accumulator, at (p, q): the sum over k of l (p, k) · r (k, q). -/
theorem matmul_b_apply {φ₁ φ₂ : FTy} (l : FVec Ideal S5000x64 φ₁) (r : FVec Ideal S64x64 φ₂) (p : Fin 5000) (q : Fin 64) :
    matmul dot_S5000x64_S64x64_S5000x64_1_0_0_1_n_n none l r (constant (F := Ideal) S5000x64 .f32 0x00000000#32) (ix2 p q) = ∑ k : Fin 64, l (ix2 p k) * r (ix2 k q) := by
  refine (Ideal.matmul_constant_zero_apply dot_S5000x64_S64x64_S5000x64_1_0_0_1_n_n none l r (ix2 p q)).trans ?_
  rw [← Equiv.sum_comp (ValueIdx.contrEquiv1 dot_S5000x64_S64x64_S5000x64_1_0_0_1_n_n 64 rfl rfl).symm]
  refine Finset.sum_congr rfl fun k _ => ?_
  have hk := ValueIdx.contrEquiv1_symm_val dot_S5000x64_S64x64_S5000x64_1_0_0_1_n_n 64 rfl rfl k
  have el : dot_S5000x64_S64x64_S5000x64_1_0_0_1_n_n.lhsIdx (ix2 p q) ((ValueIdx.contrEquiv1 dot_S5000x64_S64x64_S5000x64_1_0_0_1_n_n 64 rfl rfl).symm k) = ix2 p k := funext fun a => Fin.ext (by
    match a with
    | ⟨0, _⟩ => exact lhs0_b _ _
    | ⟨1, _⟩ => exact (lhs1_b _ _).trans hk)
  have er : dot_S5000x64_S64x64_S5000x64_1_0_0_1_n_n.rhsIdx (ix2 p q) ((ValueIdx.contrEquiv1 dot_S5000x64_S64x64_S5000x64_1_0_0_1_n_n 64 rfl rfl).symm k) = ix2 k q := funext fun a => Fin.ext (by
    match a with
    | ⟨0, _⟩ => exact (rhs0_b _ _).trans hk
    | ⟨1, _⟩ => exact rhs1_b _ _)
  rw [el, er]

/-- The product's left operand index at output index `i`: row `i 0` … -/
theorem lhs0_c (i : S5000x32.Idx) (q : dot_S5000x64_S64x32_S5000x32_1_0_0_1_n_n.contr.Idx) : (dot_S5000x64_S64x32_S5000x32_1_0_0_1_n_n.lhsIdx i q 0).val = (i 0).val := by
  unfold DotDims.lhsIdx
  rw [dif_neg (show ¬(0 : Fin S5000x64.rank) ∈ dot_S5000x64_S64x32_S5000x32_1_0_0_1_n_n.lhsBatch by decide), dif_pos (show (0 : Fin S5000x64.rank) ∈ dot_S5000x64_S64x32_S5000x32_1_0_0_1_n_n.lhsNonContracting by decide)]
  rfl
/-- … and the contracted coordinate on its second axis. -/
theorem lhs1_c (i : S5000x32.Idx) (q : dot_S5000x64_S64x32_S5000x32_1_0_0_1_n_n.contr.Idx) : (dot_S5000x64_S64x32_S5000x32_1_0_0_1_n_n.lhsIdx i q 1).val = (q ⟨0, by decide⟩).val :=
  dot_S5000x64_S64x32_S5000x32_1_0_0_1_n_n.lhsIdx_val_of_single rfl i q
/-- The right operand index: the contracted coordinate on its first axis … -/
theorem rhs0_c (i : S5000x32.Idx) (q : dot_S5000x64_S64x32_S5000x32_1_0_0_1_n_n.contr.Idx) : (dot_S5000x64_S64x32_S5000x32_1_0_0_1_n_n.rhsIdx i q 0).val = (q ⟨0, by decide⟩).val :=
  dot_S5000x64_S64x32_S5000x32_1_0_0_1_n_n.rhsIdx_val_of_single rfl i q
/-- … and column `i 1`. -/
theorem rhs1_c (i : S5000x32.Idx) (q : dot_S5000x64_S64x32_S5000x32_1_0_0_1_n_n.contr.Idx) : (dot_S5000x64_S64x32_S5000x32_1_0_0_1_n_n.rhsIdx i q 1).val = (i 1).val := by
  unfold DotDims.rhsIdx
  rw [dif_neg (show ¬(1 : Fin S64x32.rank) ∈ dot_S5000x64_S64x32_S5000x32_1_0_0_1_n_n.rhsBatch by decide), dif_pos (show (1 : Fin S64x32.rank) ∈ dot_S5000x64_S64x32_S5000x32_1_0_0_1_n_n.rhsNonContracting by decide)]
  rfl
/-- The [5000, 64] × [64, 32] product into a zero accumulator, at (p, q): the sum over k of l (p, k) · r (k, q). -/
theorem matmul_c_apply {φ₁ φ₂ : FTy} (l : FVec Ideal S5000x64 φ₁) (r : FVec Ideal S64x32 φ₂) (p : Fin 5000) (q : Fin 32) :
    matmul dot_S5000x64_S64x32_S5000x32_1_0_0_1_n_n none l r (constant (F := Ideal) S5000x32 .f32 0x00000000#32) (ix2 p q) = ∑ k : Fin 64, l (ix2 p k) * r (ix2 k q) := by
  refine (Ideal.matmul_constant_zero_apply dot_S5000x64_S64x32_S5000x32_1_0_0_1_n_n none l r (ix2 p q)).trans ?_
  rw [← Equiv.sum_comp (ValueIdx.contrEquiv1 dot_S5000x64_S64x32_S5000x32_1_0_0_1_n_n 64 rfl rfl).symm]
  refine Finset.sum_congr rfl fun k _ => ?_
  have hk := ValueIdx.contrEquiv1_symm_val dot_S5000x64_S64x32_S5000x32_1_0_0_1_n_n 64 rfl rfl k
  have el : dot_S5000x64_S64x32_S5000x32_1_0_0_1_n_n.lhsIdx (ix2 p q) ((ValueIdx.contrEquiv1 dot_S5000x64_S64x32_S5000x32_1_0_0_1_n_n 64 rfl rfl).symm k) = ix2 p k := funext fun a => Fin.ext (by
    match a with
    | ⟨0, _⟩ => exact lhs0_c _ _
    | ⟨1, _⟩ => exact (lhs1_c _ _).trans hk)
  have er : dot_S5000x64_S64x32_S5000x32_1_0_0_1_n_n.rhsIdx (ix2 p q) ((ValueIdx.contrEquiv1 dot_S5000x64_S64x32_S5000x32_1_0_0_1_n_n 64 rfl rfl).symm k) = ix2 k q := funext fun a => Fin.ext (by
    match a with
    | ⟨0, _⟩ => exact (rhs0_c _ _).trans hk
    | ⟨1, _⟩ => exact rhs1_c _ _)
  rw [el, er]

/-! ## The lane sums -/

/-- The sum along the lanes of a [5000, 64] vector, at row p: the sum over k of the entries (p, k). -/
theorem lanesum64_apply (v : FVec Ideal S5000x64 .f32) (hφ : FKind.Formats .f32)
    (hacc : (0x00000000#32 : BitVec 32) = 0x00000000#32) (p : Fin 5000) :
    multiReduction .add [1] S5000 v 0x00000000#32 reduces_S5000x64_S5000 hφ hacc (ix1 p) = ∑ k : Fin 64, v (ix2 p k) := by
  refine (Ideal.multiReduction_add_single v 0x00000000#32 reduces_S5000x64_S5000 hφ hacc (ix1 p)).trans ?_
  refine Finset.sum_congr rfl fun k _ => ?_
  exact congrArg v (funext fun a => Fin.ext (by match a with | ⟨0, _⟩ => rfl | ⟨1, _⟩ => rfl))

/-- The sum along the lanes of a [5000, 32] vector, at row p: the sum over k of the entries (p, k). -/
theorem lanesum32_apply (v : FVec Ideal S5000x32 .f32) (hφ : FKind.Formats .f32)
    (hacc : (0x00000000#32 : BitVec 32) = 0x00000000#32) (p : Fin 5000) :
    multiReduction .add [1] S5000 v 0x00000000#32 reduces_S5000x32_S5000 hφ hacc (ix1 p) = ∑ k : Fin 32, v (ix2 p k) := by
  refine (Ideal.multiReduction_add_single v 0x00000000#32 reduces_S5000x32_S5000 hφ hacc (ix1 p)).trans ?_
  refine Finset.sum_congr rfl fun k _ => ?_
  exact congrArg v (funext fun a => Fin.ext (by match a with | ⟨0, _⟩ => rfl | ⟨1, _⟩ => rfl))

/-! ## The bodies' stored values at an entry -/

/-- The first body's stored value at (p, q) is stage 0's row function of row p of the aggregated block, of the
    node block and of the count column, and of the weights and the bias row. -/
theorem k0_pay1_apply (v0 : Vec Ideal S5000x32 .f32) (v2 : Vec Ideal S5000x1 .f32) (v7 : Vec Ideal S5000x32 .f32)
    (v9 v11 : Vec Ideal S32x64 .f32) (v16 : Vec Ideal S1x64 .f32) (p : Fin 5000) (q : Fin 64) :
    k0_pay1 v0 v2 v7 v9 v11 v16 (ix2 p q)
      = stage0Row (fun k => v0 (ix2 p k)) (fun k => v7 (ix2 p k)) (v2 (ix2 p (0 : Fin 1)))
          (fun k j => v9 (ix2 k j)) (fun k j => v11 (ix2 k j)) (fun j => v16 (ix2 (0 : Fin 1) j)) q := by
  unfold k0_pay1 stage0Row normRow combineRow
  simp only [truncf_apply, maximumf_apply, divf_apply, addf_apply, mulf_apply, broadcast_apply, sqrt_apply,
    shapeCast_self, broadcastTo_a1_ab_apply, shapeCast_a_a1_apply, broadcastTo_1b_ab_apply,
    matmul_a_apply]
  rw [lanesum64_apply]
  simp only [truncf_apply, maximumf_apply, divf_apply, addf_apply, mulf_apply, broadcast_apply, sqrt_apply,
    shapeCast_self, broadcastTo_a1_ab_apply, shapeCast_a_a1_apply, broadcastTo_1b_ab_apply,
    matmul_a_apply]
  try rfl

/-- The second body's stored value at (p, 0) is stage 1's row function of row p of its row-shaped operands and of
    the weights and biases. -/
theorem k1_pay1_apply (v0 : Vec Ideal S5000x64 .f32) (v2 : Vec Ideal S5000x1 .f32) (v7 : Vec Ideal S5000x64 .bf16)
    (v9 v11 : Vec Ideal S64x64 .f32) (v16 : Vec Ideal S1x64 .f32) (v29 : Vec Ideal S64x32 .f32) (v32 v38 : Vec Ideal S1x32 .f32)
    (v44 : Vec Ideal S1x1 .f32) (p : Fin 5000) (u : Fin 1) :
    k1_pay1 (k1_pay2 v0 v2 v7 v9 v11 v16 v29 v32) (k1_pay3 (F := Ideal)) v38 v44 (ix2 p u)
      = stage1Row (fun k => v0 (ix2 p k)) (fun k => v7 (ix2 p k)) (v2 (ix2 p (0 : Fin 1)))
          (fun k j => v9 (ix2 k j)) (fun k j => v11 (ix2 k j)) (fun j => v16 (ix2 (0 : Fin 1) j))
          (fun k j => v29 (ix2 k j)) (fun j => v32 (ix2 (0 : Fin 1) j)) (fun j => v38 (ix2 (0 : Fin 1) j))
          (v44 (ix2 (0 : Fin 1) u)) := by
  unfold k1_pay1 k1_pay2 k1_pay3 stage1Row normRow combineRow
  simp only [truncf_apply, maximumf_apply, divf_apply, addf_apply, mulf_apply, broadcast_apply, sqrt_apply,
    shapeCast_self, broadcastTo_a1_ab_apply, shapeCast_a_a1_apply, broadcastTo_1b_ab_apply,
    matmul_b_apply, matmul_c_apply]
  rw [lanesum32_apply]
  simp only [truncf_apply, maximumf_apply, divf_apply, addf_apply, mulf_apply, broadcast_apply, sqrt_apply,
    shapeCast_self, broadcastTo_a1_ab_apply, shapeCast_a_a1_apply, broadcastTo_1b_ab_apply,
    matmul_b_apply, matmul_c_apply]
  rw [lanesum64_apply]
  simp only [truncf_apply, maximumf_apply, divf_apply, addf_apply, mulf_apply, broadcast_apply, sqrt_apply,
    shapeCast_self, broadcastTo_a1_ab_apply, shapeCast_a_a1_apply, broadcastTo_1b_ab_apply,
    matmul_b_apply, matmul_c_apply]
  try rfl

end Cert.KernelIdeal.Rows

end
-- ==== Proof.KernelBlocks0.lean ====
/-
  The first pallas_call's output array after all ten grid points, as one function of the arrays the region finds.

  Point t works on rows 5000·t … 5000·t + 4999: its three row-shaped windows (aggregate, node rows, count column) and
  its output window all sit at block row t, and the weight and bias windows are the whole of their small arrays at
  every point. So what point t writes back is block t of the whole-array function "stage 0 of row r", and the ten
  blocks tile the 50000 rows.
-/
import proofs.«178465_j15985868275842_2_alg».proof.Proof.Gen.KernelIdeal.Frame
import proofs.«178465_j15985868275842_2_alg».proof.Proof.KernelRows

set_option maxRecDepth 16384

noncomputable section

open scoped BigOperators

namespace Cert.KernelIdeal.Blocks0

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Sage Cert.KernelIdeal.Rows

variable (V : (c : Dev nD) → (b : Ref sig .tc) → Buf (Elt Ideal) ((c : Thread nD τ).loc b))

theorem origin : (![0, 0] : Fin 2 → Nat) = fun _ => 0 := funext fun a => by fin_cases a <;> rfl

/-- Stage 0 as a function of whole arrays: entry (r, j) is the stage's row function of row r of the aggregate, of the
    node rows and of the count column, and of the weights and the bias row. -/
def G (A0 A1 : S50000x32.Idx → EReal) (A2 : S50000x1.Idx → EReal) (A3 A4 : S32x64.Idx → EReal) (A5 : S1x64.Idx → EReal) :
    S50000x64.Idx → EReal := fun i =>
  stage0Row (fun k => A0 (ix2 (i 0 : Fin 50000) k)) (fun k => A1 (ix2 (i 0 : Fin 50000) k)) (A2 (ix2 (i 0 : Fin 50000) (0 : Fin 1)))
    (fun k j => A3 (ix2 k j)) (fun k j => A4 (ix2 k j)) (fun j => A5 (ix2 (0 : Fin 1) j)) (i 1 : Fin 64)

/-- The printed index maps over the grid: the row-shaped windows and the output sit at block row t, column block 0; the
    small windows at block (0, 0). -/
theorem idx_facts : ∀ t : Fin cfg0.N,
    win0_0.index t (0 : Fin 2) = win0_6.index t (0 : Fin 2) ∧ win0_0.index t (1 : Fin 2) = 0
    ∧ win0_1.index t (0 : Fin 2) = win0_6.index t (0 : Fin 2) ∧ win0_1.index t (1 : Fin 2) = 0
    ∧ win0_2.index t (0 : Fin 2) = win0_6.index t (0 : Fin 2) ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

set_option maxHeartbeats 4000000 in
/-- WHAT POINT t WRITES BACK is block t of `G` of the arrays as the region finds them. -/
theorem flushed_eq (c : Dev nD) (t : Fin cfg0.N) :
    (dat0 (F := Ideal) V c).flushed 6 t = ((cfg0.win 6).blk t).view.read (Elt Ideal)
      (G (V c (Pipeline.arrRef spec0 0)) (V c (Pipeline.arrRef spec0 1)) (V c (Pipeline.arrRef spec0 2))
         (V c (Pipeline.arrRef spec0 3)) (V c (Pipeline.arrRef spec0 4)) (V c (Pipeline.arrRef spec0 5))) := by
  show (cfg0.win 6).cut (grid0.coords t) ((dat0 (F := Ideal) V c).after 6 t) = _
  rw [after0_6]
  unfold out0_6
  rw [View.canon_unit_zero origin]
  simp only [View.ld_unit_zero (S := S5000x32) origin, View.ld_unit_zero (S := S5000x1) origin,
    View.ld_unit_zero (S := S32x64) origin, View.ld_unit_zero (S := S1x64) origin]
  obtain ⟨e00, e01, e10, e11, e20, e21, e30, e31, e40, e41, e50, e51, e60, e61⟩ := idx_facts t
  funext j
  obtain ⟨p, q, rfl⟩ : ∃ (p : Fin 5000) (q : Fin 64), j = ix2 p q := ⟨j 0, j 1, eq_ix2 j⟩
  show k0_pay1 (iblk0 V c 0 t) (iblk0 V c 2 t) (iblk0 V c 1 t) (iblk0 V c 3 t) (iblk0 V c 4 t) (iblk0 V c 5 t) (ix2 p q) = _
  refine (k0_pay1_apply (iblk0 V c 0 t) (iblk0 V c 2 t) (iblk0 V c 1 t) (iblk0 V c 3 t) (iblk0 V c 4 t) (iblk0 V c 5 t) p q).trans ?_
  show _ = G _ _ _ _ _ _ (((cfg0.win 6).blk t).view.emb (ix2 p q))
  unfold G
  have hr : ((((cfg0.win 6).blk t).view.emb (ix2 p q)) 0).val = win0_6.index t (0 : Fin 2) * 5000 + 1 * p.val := rfl
  have hq : (((cfg0.win 6).blk t).view.emb (ix2 p q)) 1 = q := Fin.ext (by
    show win0_6.index t (1 : Fin 2) * 64 + 1 * q.val = q.val; omega)
  have h0 : (fun k : Fin 32 => iblk0 V c 0 t (ix2 p k))
      = fun k : Fin 32 => V c (Pipeline.arrRef spec0 0) (ix2 ((((cfg0.win 6).blk t).view.emb (ix2 p q)) 0 : Fin 50000) k) :=
    funext fun k => by
      show V c (Pipeline.arrRef spec0 0) (((cfg0.win 0).blk t).view.emb (ix2 p k)) = _
      refine congrArg (V c (Pipeline.arrRef spec0 0)) (funext fun a => Fin.ext ?_)
      match a with
      | ⟨0, _⟩ => show win0_0.index t (0 : Fin 2) * 5000 + 1 * p.val = win0_6.index t (0 : Fin 2) * 5000 + 1 * p.val; omega
      | ⟨1, _⟩ => show win0_0.index t (1 : Fin 2) * 32 + 1 * k.val = k.val; omega
  have h1 : (fun k : Fin 32 => iblk0 V c 1 t (ix2 p k))
      = fun k : Fin 32 => V c (Pipeline.arrRef spec0 1) (ix2 ((((cfg0.win 6).blk t).view.emb (ix2 p q)) 0 : Fin 50000) k) :=
    funext fun k => by
      show V c (Pipeline.arrRef spec0 1) (((cfg0.win 1).blk t).view.emb (ix2 p k)) = _
      refine congrArg (V c (Pipeline.arrRef spec0 1)) (funext fun a => Fin.ext ?_)
      match a with
      | ⟨0, _⟩ => show win0_1.index t (0 : Fin 2) * 5000 + 1 * p.val = win0_6.index t (0 : Fin 2) * 5000 + 1 * p.val; omega
      | ⟨1, _⟩ => show win0_1.index t (1 : Fin 2) * 32 + 1 * k.val = k.val; omega
  have h2 : iblk0 V c 2 t (ix2 p (0 : Fin 1))
      = V c (Pipeline.arrRef spec0 2) (ix2 ((((cfg0.win 6).blk t).view.emb (ix2 p q)) 0 : Fin 50000) (0 : Fin 1)) := by
    show V c (Pipeline.arrRef spec0 2) (((cfg0.win 2).blk t).view.emb (ix2 p (0 : Fin 1))) = _
    refine congrArg (V c (Pipeline.arrRef spec0 2)) (funext fun a => Fin.ext ?_)
    match a with
    | ⟨0, _⟩ => show win0_2.index t (0 : Fin 2) * 5000 + 1 * p.val = win0_6.index t (0 : Fin 2) * 5000 + 1 * p.val; omega
    | ⟨1, _⟩ => show win0_2.index t (1 : Fin 2) * 1 + 1 * 0 = 0; omega
  have h3 : (fun (k : Fin 32) (j : Fin 64) => iblk0 V c 3 t (ix2 k j)) = fun (k : Fin 32) (j : Fin 64) => V c (Pipeline.arrRef spec0 3) (ix2 k j) :=
    funext fun k => funext fun j => by
      show V c (Pipeline.arrRef spec0 3) (((cfg0.win 3).blk t).view.emb (ix2 k j)) = _
      refine congrArg (V c (Pipeline.arrRef spec0 3)) (funext fun a => Fin.ext ?_)
      match a with
      | ⟨0, _⟩ => show win0_3.index t (0 : Fin 2) * 32 + 1 * k.val = k.val; omega
      | ⟨1, _⟩ => show win0_3.index t (1 : Fin 2) * 64 + 1 * j.val = j.val; omega
  have h4 : (fun (k : Fin 32) (j : Fin 64) => iblk0 V c 4 t (ix2 k j)) = fun (k : Fin 32) (j : Fin 64) => V c (Pipeline.arrRef spec0 4) (ix2 k j) :=
    funext fun k => funext fun j => by
      show V c (Pipeline.arrRef spec0 4) (((cfg0.win 4).blk t).view.emb (ix2 k j)) = _
      refine congrArg (V c (Pipeline.arrRef spec0 4)) (funext fun a => Fin.ext ?_)
      match a with
      | ⟨0, _⟩ => show win0_4.index t (0 : Fin 2) * 32 + 1 * k.val = k.val; omega
      | ⟨1, _⟩ => show win0_4.index t (1 : Fin 2) * 64 + 1 * j.val = j.val; omega
  have h5 : (fun j : Fin 64 => iblk0 V c 5 t (ix2 (0 : Fin 1) j)) = fun j : Fin 64 => V c (Pipeline.arrRef spec0 5) (ix2 (0 : Fin 1) j) :=
    funext fun j => by
      show V c (Pipeline.arrRef spec0 5) (((cfg0.win 5).blk t).view.emb (ix2 (0 : Fin 1) j)) = _
      refine congrArg (V c (Pipeline.arrRef spec0 5)) (funext fun a => Fin.ext ?_)
      match a with
      | ⟨0, _⟩ => show win0_5.index t (0 : Fin 2) * 1 + 1 * 0 = 0; omega
      | ⟨1, _⟩ => show win0_5.index t (1 : Fin 2) * 64 + 1 * j.val = j.val; omega
  rw [h0, h1, h2, h3, h4, h5, hq]

/-- An index of the output array is in point t's block iff each coordinate is in the block's range on its axis. -/
theorem mem_blk (t : Fin cfg0.N) (i : S50000x64.Idx) :
    i ∈ ((cfg0.win 6).blk t).view.set ↔ ∀ a : Fin 2, win0_6.index t a * S5000x64.size a ≤ (i a).val ∧ (i a).val < win0_6.index t a * S5000x64.size a + S5000x64.size a := by
  show i ∈ ((View.whole main_v24).slice (win0_6.rect t)).set ↔ _
  rw [View.set_slice_whole, Rect.mem_set_unit]
  exact Iff.rfl

/-- The ten blocks tile the array: row r is in the block of point r / 5000. -/
theorem covered (i : S50000x64.Idx) : ∃ t : Fin cfg0.N, (cfg0.win 6).flush t = true ∧ i ∈ ((cfg0.win 6).blk t).view.set := by
  have hi0 : (i 0).val < 50000 := (i 0).isLt
  have hi1 : (i 1).val < 64 := (i 1).isLt
  have hN : cfg0.N = 10 := N_0
  refine ⟨⟨(i 0).val / 5000, by rw [hN]; omega⟩, flush0_6 _, ?_⟩
  rw [mem_blk]
  obtain ⟨-, -, -, -, -, -, -, -, -, -, -, -, e60, e61⟩ := idx_facts ⟨(i 0).val / 5000, by rw [hN]; omega⟩
  intro a
  match a with
  | ⟨0, _⟩ =>
    show win0_6.index _ (0 : Fin 2) * 5000 ≤ (i 0).val ∧ (i 0).val < win0_6.index _ (0 : Fin 2) * 5000 + 5000
    rw [e60]; show (i 0).val / 5000 * 5000 ≤ (i 0).val ∧ (i 0).val < (i 0).val / 5000 * 5000 + 5000; omega
  | ⟨1, _⟩ =>
    show win0_6.index _ (1 : Fin 2) * 64 ≤ (i 1).val ∧ (i 1).val < win0_6.index _ (1 : Fin 2) * 64 + 64
    rw [e61]; omega

/-- THE OUTPUT ARRAY after the region: `G` of the arrays the region finds. -/
theorem final (c : Dev nD) :
    (dat0 (F := Ideal) V c).arrAt 6 cfg0.N
      = G (V c (Pipeline.arrRef spec0 0)) (V c (Pipeline.arrRef spec0 1)) (V c (Pipeline.arrRef spec0 2))
          (V c (Pipeline.arrRef spec0 3)) (V c (Pipeline.arrRef spec0 4)) (V c (Pipeline.arrRef spec0 5)) :=
  (dat0 (F := Ideal) V c).arrAt_eq_of_cover 6 _ (fun t _ => flushed_eq V c t) covered

end Cert.KernelIdeal.Blocks0

end
-- ==== Proof.KernelBlocks1.lean ====
/-
  The second pallas_call's output array after all ten grid points, as one function of the arrays the region finds.

  Point t works on rows 5000·t … 5000·t + 4999: its three row-shaped windows (aggregate, layer-0 rows, count column)
  and its one-column output window sit at block row t; the seven weight and bias windows are the whole of their small
  arrays at every point. What point t writes back is block t of the whole-array function "stage 1 of row r", and the
  ten blocks tile the 50000 rows.
-/
import proofs.«178465_j15985868275842_2_alg».proof.Proof.Gen.KernelIdeal.Frame
import proofs.«178465_j15985868275842_2_alg».proof.Proof.KernelRows

set_option maxRecDepth 16384

noncomputable section

open scoped BigOperators

namespace Cert.KernelIdeal.Blocks1

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Sage Cert.KernelIdeal.Rows

variable (V : (c : Dev nD) → (b : Ref sig .tc) → Buf (Elt Ideal) ((c : Thread nD τ).loc b))

theorem origin : (![0, 0] : Fin 2 → Nat) = fun _ => 0 := funext fun a => by fin_cases a <;> rfl

/-- Stage 1 as a function of whole arrays: entry (r, 0) is the stage's row function of row r of the aggregate, of the
    layer-0 rows and of the count column, and of the weights and biases. -/
def G (A0 A1 : S50000x64.Idx → EReal) (A2 : S50000x1.Idx → EReal) (A3 A4 : S64x64.Idx → EReal) (A5 : S1x64.Idx → EReal)
    (A6 : S64x32.Idx → EReal) (A7 A8 : S1x32.Idx → EReal) (A9 : S1x1.Idx → EReal) : S50000x1.Idx → EReal := fun i =>
  stage1Row (fun k => A0 (ix2 (i 0 : Fin 50000) k)) (fun k => A1 (ix2 (i 0 : Fin 50000) k)) (A2 (ix2 (i 0 : Fin 50000) (0 : Fin 1)))
    (fun k j => A3 (ix2 k j)) (fun k j => A4 (ix2 k j)) (fun j => A5 (ix2 (0 : Fin 1) j))
    (fun k q => A6 (ix2 k q)) (fun q => A7 (ix2 (0 : Fin 1) q)) (fun q => A8 (ix2 (0 : Fin 1) q))
    (A9 (ix2 (0 : Fin 1) (i 1 : Fin 1)))

/-- The printed index maps over the grid: the row-shaped windows and the output sit at block row t, column block 0; the
    small windows at block (0, 0). -/
theorem idx_facts : ∀ t : Fin cfg1.N,
    win1_0.index t (0 : Fin 2) = win1_10.index t (0 : Fin 2) ∧ win1_0.index t (1 : Fin 2) = 0
    ∧ win1_1.index t (0 : Fin 2) = win1_10.index t (0 : Fin 2) ∧ win1_1.index t (1 : Fin 2) = 0
    ∧ win1_2.index t (0 : Fin 2) = win1_10.index t (0 : Fin 2) ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0
    ∧ win1_9.index t (0 : Fin 2) = 0 ∧ win1_9.index t (1 : Fin 2) = 0
    ∧ win1_10.index t (0 : Fin 2) = t.val ∧ win1_10.index t (1 : Fin 2) = 0 :=
  (by decide +kernel : ∀ t : Fin grid1.N, _)

set_option maxHeartbeats 4000000 in
/-- WHAT POINT t WRITES BACK is block t of `G` of the arrays as the region finds them. -/
theorem flushed_eq (c : Dev nD) (t : Fin cfg1.N) :
    (dat1 (F := Ideal) V c).flushed 10 t = ((cfg1.win 10).blk t).view.read (Elt Ideal)
      (G (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) (V c (Pipeline.arrRef spec1 6)) (V c (Pipeline.arrRef spec1 7)) (V c (Pipeline.arrRef spec1 8)) (V c (Pipeline.arrRef spec1 9))) := by
  show (cfg1.win 10).cut (grid1.coords t) ((dat1 (F := Ideal) V c).after 10 t) = _
  rw [after1_10]
  unfold out1_10
  rw [View.canon_unit_zero origin]
  simp only [View.ld_unit_zero (S := S5000x64) origin, View.ld_unit_zero (S := S5000x1) origin,
    View.ld_unit_zero (S := S64x64) origin, View.ld_unit_zero (S := S1x64) origin, View.ld_unit_zero (S := S64x32) origin,
    View.ld_unit_zero (S := S1x32) origin, View.ld_unit_zero (S := S1x1) origin]
  obtain ⟨e00, e01, e10, e11, e20, e21, e30, e31, e40, e41, e50, e51, e60, e61, e70, e71, e80, e81, e90, e91, e100, e101⟩ := idx_facts t
  funext j
  obtain ⟨p, u, rfl⟩ : ∃ (p : Fin 5000) (u : Fin 1), j = ix2 p u := ⟨j 0, j 1, eq_ix2 j⟩
  show k1_pay1 (k1_pay2 (iblk1 V c 0 t) (iblk1 V c 2 t) (iblk1 V c 1 t) (iblk1 V c 3 t) (iblk1 V c 4 t) (iblk1 V c 5 t) (iblk1 V c 6 t) (iblk1 V c 7 t)) (k1_pay3 (F := Ideal)) (iblk1 V c 8 t) (iblk1 V c 9 t) (ix2 p u) = _
  refine (k1_pay1_apply (iblk1 V c 0 t) (iblk1 V c 2 t) (iblk1 V c 1 t) (iblk1 V c 3 t) (iblk1 V c 4 t) (iblk1 V c 5 t)
    (iblk1 V c 6 t) (iblk1 V c 7 t) (iblk1 V c 8 t) (iblk1 V c 9 t) p u).trans ?_
  show _ = G _ _ _ _ _ _ _ _ _ _ (((cfg1.win 10).blk t).view.emb (ix2 p u))
  unfold G
  have h0 : (fun k : Fin 64 => iblk1 V c 0 t (ix2 p k))
      = fun k : Fin 64 => V c (Pipeline.arrRef spec1 0) (ix2 ((((cfg1.win 10).blk t).view.emb (ix2 p u)) 0 : Fin 50000) k) :=
    funext fun k => by
      show V c (Pipeline.arrRef spec1 0) (((cfg1.win 0).blk t).view.emb (ix2 p k)) = _
      refine congrArg (V c (Pipeline.arrRef spec1 0)) (funext fun a => Fin.ext ?_)
      match a with
      | ⟨0, _⟩ => show win1_0.index t (0 : Fin 2) * 5000 + 1 * p.val = win1_10.index t (0 : Fin 2) * 5000 + 1 * p.val; omega
      | ⟨1, _⟩ => show win1_0.index t (1 : Fin 2) * 64 + 1 * k.val = k.val; omega
  have h1 : (fun k : Fin 64 => iblk1 V c 1 t (ix2 p k))
      = fun k : Fin 64 => V c (Pipeline.arrRef spec1 1) (ix2 ((((cfg1.win 10).blk t).view.emb (ix2 p u)) 0 : Fin 50000) k) :=
    funext fun k => by
      show V c (Pipeline.arrRef spec1 1) (((cfg1.win 1).blk t).view.emb (ix2 p k)) = _
      refine congrArg (V c (Pipeline.arrRef spec1 1)) (funext fun a => Fin.ext ?_)
      match a with
      | ⟨0, _⟩ => show win1_1.index t (0 : Fin 2) * 5000 + 1 * p.val = win1_10.index t (0 : Fin 2) * 5000 + 1 * p.val; omega
      | ⟨1, _⟩ => show win1_1.index t (1 : Fin 2) * 64 + 1 * k.val = k.val; omega
  have h2 : iblk1 V c 2 t (ix2 p (0 : Fin 1))
      = V c (Pipeline.arrRef spec1 2) (ix2 ((((cfg1.win 10).blk t).view.emb (ix2 p u)) 0 : Fin 50000) (0 : Fin 1)) := by
    show V c (Pipeline.arrRef spec1 2) (((cfg1.win 2).blk t).view.emb (ix2 p (0 : Fin 1))) = _
    refine congrArg (V c (Pipeline.arrRef spec1 2)) (funext fun a => Fin.ext ?_)
    match a with
    | ⟨0, _⟩ => show win1_2.index t (0 : Fin 2) * 5000 + 1 * p.val = win1_10.index t (0 : Fin 2) * 5000 + 1 * p.val; omega
    | ⟨1, _⟩ => show win1_2.index t (1 : Fin 2) * 1 + 1 * 0 = 0; omega
  have h3 : (fun (k : Fin 64) (j : Fin 64) => iblk1 V c 3 t (ix2 k j))
      = fun (k : Fin 64) (j : Fin 64) => V c (Pipeline.arrRef spec1 3) (ix2 k j) :=
    funext fun k => funext fun j => by
      show V c (Pipeline.arrRef spec1 3) (((cfg1.win 3).blk t).view.emb (ix2 k j)) = _
      refine congrArg (V c (Pipeline.arrRef spec1 3)) (funext fun a => Fin.ext ?_)
      match a with
      | ⟨0, _⟩ => show win1_3.index t (0 : Fin 2) * 64 + 1 * k.val = k.val; omega
      | ⟨1, _⟩ => show win1_3.index t (1 : Fin 2) * 64 + 1 * j.val = j.val; omega
  have h4 : (fun (k : Fin 64) (j : Fin 64) => iblk1 V c 4 t (ix2 k j))
      = fun (k : Fin 64) (j : Fin 64) => V c (Pipeline.arrRef spec1 4) (ix2 k j) :=
    funext fun k => funext fun j => by
      show V c (Pipeline.arrRef spec1 4) (((cfg1.win 4).blk t).view.emb (ix2 k j)) = _
      refine congrArg (V c (Pipeline.arrRef spec1 4)) (funext fun a => Fin.ext ?_)
      match a with
      | ⟨0, _⟩ => show win1_4.index t (0 : Fin 2) * 64 + 1 * k.val = k.val; omega
      | ⟨1, _⟩ => show win1_4.index t (1 : Fin 2) * 64 + 1 * j.val = j.val; omega
  have h5 : (fun j : Fin 64 => iblk1 V c 5 t (ix2 (0 : Fin 1) j))
      = fun j : Fin 64 => V c (Pipeline.arrRef spec1 5) (ix2 (0 : Fin 1) j) :=
    funext fun j => by
      show V c (Pipeline.arrRef spec1 5) (((cfg1.win 5).blk t).view.emb (ix2 (0 : Fin 1) j)) = _
      refine congrArg (V c (Pipeline.arrRef spec1 5)) (funext fun a => Fin.ext ?_)
      match a with
      | ⟨0, _⟩ => show win1_5.index t (0 : Fin 2) * 1 + 1 * 0 = 0; omega
      | ⟨1, _⟩ => show win1_5.index t (1 : Fin 2) * 64 + 1 * j.val = j.val; omega
  have h6 : (fun (k : Fin 64) (j : Fin 32) => iblk1 V c 6 t (ix2 k j))
      = fun (k : Fin 64) (j : Fin 32) => V c (Pipeline.arrRef spec1 6) (ix2 k j) :=
    funext fun k => funext fun j => by
      show V c (Pipeline.arrRef spec1 6) (((cfg1.win 6).blk t).view.emb (ix2 k j)) = _
      refine congrArg (V c (Pipeline.arrRef spec1 6)) (funext fun a => Fin.ext ?_)
      match a with
      | ⟨0, _⟩ => show win1_6.index t (0 : Fin 2) * 64 + 1 * k.val = k.val; omega
      | ⟨1, _⟩ => show win1_6.index t (1 : Fin 2) * 32 + 1 * j.val = j.val; omega
  have h7 : (fun j : Fin 32 => iblk1 V c 7 t (ix2 (0 : Fin 1) j))
      = fun j : Fin 32 => V c (Pipeline.arrRef spec1 7) (ix2 (0 : Fin 1) j) :=
    funext fun j => by
      show V c (Pipeline.arrRef spec1 7) (((cfg1.win 7).blk t).view.emb (ix2 (0 : Fin 1) j)) = _
      refine congrArg (V c (Pipeline.arrRef spec1 7)) (funext fun a => Fin.ext ?_)
      match a with
      | ⟨0, _⟩ => show win1_7.index t (0 : Fin 2) * 1 + 1 * 0 = 0; omega
      | ⟨1, _⟩ => show win1_7.index t (1 : Fin 2) * 32 + 1 * j.val = j.val; omega
  have h8 : (fun j : Fin 32 => iblk1 V c 8 t (ix2 (0 : Fin 1) j))
      = fun j : Fin 32 => V c (Pipeline.arrRef spec1 8) (ix2 (0 : Fin 1) j) :=
    funext fun j => by
      show V c (Pipeline.arrRef spec1 8) (((cfg1.win 8).blk t).view.emb (ix2 (0 : Fin 1) j)) = _
      refine congrArg (V c (Pipeline.arrRef spec1 8)) (funext fun a => Fin.ext ?_)
      match a with
      | ⟨0, _⟩ => show win1_8.index t (0 : Fin 2) * 1 + 1 * 0 = 0; omega
      | ⟨1, _⟩ => show win1_8.index t (1 : Fin 2) * 32 + 1 * j.val = j.val; omega
  have h9 : iblk1 V c 9 t (ix2 (0 : Fin 1) u) = V c (Pipeline.arrRef spec1 9) (ix2 (0 : Fin 1) ((((cfg1.win 10).blk t).view.emb (ix2 p u)) 1 : Fin 1)) := by
    show V c (Pipeline.arrRef spec1 9) (((cfg1.win 9).blk t).view.emb (ix2 (0 : Fin 1) u)) = _
    refine congrArg (V c (Pipeline.arrRef spec1 9)) (funext fun a => Fin.ext ?_)
    match a with
    | ⟨0, _⟩ => show win1_9.index t (0 : Fin 2) * 1 + 1 * 0 = 0; omega
    | ⟨1, _⟩ => show win1_9.index t (1 : Fin 2) * 1 + 1 * u.val = win1_10.index t (1 : Fin 2) * 1 + 1 * u.val; omega
  rw [h0, h1, h2, h3, h4, h5, h6, h7, h8, h9]

/-- An index of the output array is in point t's block iff each coordinate is in the block's range on its axis. -/
theorem mem_blk (t : Fin cfg1.N) (i : S50000x1.Idx) :
    i ∈ ((cfg1.win 10).blk t).view.set ↔ ∀ a : Fin 2, win1_10.index t a * S5000x1.size a ≤ (i a).val ∧ (i a).val < win1_10.index t a * S5000x1.size a + S5000x1.size a := by
  show i ∈ ((View.whole main_v40).slice (win1_10.rect t)).set ↔ _
  rw [View.set_slice_whole, Rect.mem_set_unit]
  exact Iff.rfl

/-- The ten blocks tile the array: row r is in the block of point r / 5000. -/
theorem covered (i : S50000x1.Idx) : ∃ t : Fin cfg1.N, (cfg1.win 10).flush t = true ∧ i ∈ ((cfg1.win 10).blk t).view.set := by
  have hi0 : (i 0).val < 50000 := (i 0).isLt
  have hi1 : (i 1).val < 1 := (i 1).isLt
  have hN : cfg1.N = 10 := N_1
  refine ⟨⟨(i 0).val / 5000, by rw [hN]; omega⟩, flush1_10 _, ?_⟩
  rw [mem_blk]
  obtain ⟨-, -, -, -, -, -, -, -, -, -, -, -, -, -, -, -, -, -, -, -, e100, e101⟩ := idx_facts ⟨(i 0).val / 5000, by rw [hN]; omega⟩
  intro a
  match a with
  | ⟨0, _⟩ =>
    show win1_10.index _ (0 : Fin 2) * 5000 ≤ (i 0).val ∧ (i 0).val < win1_10.index _ (0 : Fin 2) * 5000 + 5000
    rw [e100]; show (i 0).val / 5000 * 5000 ≤ (i 0).val ∧ (i 0).val < (i 0).val / 5000 * 5000 + 5000; omega
  | ⟨1, _⟩ =>
    show win1_10.index _ (1 : Fin 2) * 1 ≤ (i 1).val ∧ (i 1).val < win1_10.index _ (1 : Fin 2) * 1 + 1
    rw [e101]; omega

/-- THE OUTPUT ARRAY after the region: `G` of the arrays the region finds. -/
theorem final (c : Dev nD) :
    (dat1 (F := Ideal) V c).arrAt 10 cfg1.N
      = G (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) (V c (Pipeline.arrRef spec1 6)) (V c (Pipeline.arrRef spec1 7)) (V c (Pipeline.arrRef spec1 8)) (V c (Pipeline.arrRef spec1 9)) :=
  (dat1 (F := Ideal) V c).arrAt_eq_of_cover 10 _ (fun t _ => flushed_eq V c t) covered

end Cert.KernelIdeal.Blocks1

end
-- ==== Proof.KernelValue.lean ====
/-
  The idealized kernel's result, read back through @main.

  @main is: host operations (the edge ids split and normalized, the in-degree count, the first gather and scatter-add),
  the first pallas_call, host operations (the second gather and scatter-add, four reshapes), the second pallas_call,
  and a closing reshape. Reading the result's buffer back through these five segments: the closing reshape of the
  second call's output array; that array is stage 1 of the arrays the second call finds; those are the second
  scatter-add of rows gathered from the first call's output, that output itself, the count column, and weights and
  reshaped biases; the first call's output is stage 0 of the arrays the first call finds.

  The host operations on the edge ids, the gathers and the scatter-adds are the reference's own operations on the same
  operands (a change of float format is the identity on the extended reals), so they are named by the reference's
  stage functions.
-/
import proofs.«178465_j15985868275842_2_alg».proof.Proof.Gen.KernelIdeal.Frame
import proofs.«178465_j15985868275842_2_alg».proof.Proof.Gen.ReferenceIdeal.Read
import proofs.«178465_j15985868275842_2_alg».proof.Proof.KernelBlocks0
import proofs.«178465_j15985868275842_2_alg».proof.Proof.KernelBlocks1
import Idealize.ShloMosaic.Lib.StableHlo.Run

set_option maxRecDepth 16384

noncomputable section

namespace Cert.KernelIdeal.HostValue

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (m : (ℓ : Loc nD τ sig) → Buf (Elt Ideal) ℓ) (ρ : Dev nD → PrngReg) (c : Dev nD)

/-! ## The in-degree count as the kernel computes it, and the second aggregate as a function of the layer-0 rows -/

/-- The kernel's count column: ones scattered into a zero vector at the destination ids, floored at one, reshaped to a
    column. -/
def countCol (x1 : (⟨S2x1600000, .i32⟩ : BufTy).Contents (Elt Ideal)) : S50000x1.Idx → EReal :=
  shapeCast S50000x1
    (maximumf (F := Ideal)
      (Host.scatterAdd (F := Ideal) scatter_S50000_S1600000x1_S1600000_n_0_0_1
        (broadcastInDim S50000 ![] bcast_S_S50000 (constant (F := Ideal) S_ .f32 0x00000000#32))
        (Cert.ReferenceIdeal.Read.val_main_v16 (F := Ideal) x1)
        (broadcastInDim S1600000 ![] bcast_S_S1600000 (constant (F := Ideal) S_ .f32 0x3F800000#32)))
      (broadcastInDim S50000 ![] bcast_S_S50000 (constant (F := Ideal) S_ .f32 0x3F800000#32)))
    shapeCasts_S50000_S50000x1

/-- The second aggregate: rows of `h` gathered at the source ids and scatter-added at the destination ids. -/
def aggOf (x1 : (⟨S2x1600000, .i32⟩ : BufTy).Contents (Elt Ideal)) (h : S50000x64.Idx → EReal) : S50000x64.Idx → EReal :=
  Host.scatterAdd (F := Ideal) (φ := .f32) scatter_S50000x64_S1600000x1_S1600000x64_1_0_0_1
    (Cert.ReferenceIdeal.Read.val_main_v41 (F := Ideal)) (Cert.ReferenceIdeal.Read.val_main_v42 (F := Ideal) x1)
    (Host.gather gather_S50000x64_S1600000x1_S1600000x64_1_0_n_n_0_1_164 h (Cert.ReferenceIdeal.Read.val_main_v39 (F := Ideal) x1))

/-! ## The arrays the first pallas_call finds -/

set_option maxHeartbeats 4000000 in
theorem in0_0 : (V1 m ρ c (Pipeline.arrRef spec0 0) : S50000x32.Idx → EReal)
    = Cert.ReferenceIdeal.Read.val_main_v13 (F := Ideal) (m ((c.tc : Thread nD τ).loc main_arg0)) (m ((c.tc : Thread nD τ).loc main_arg1)) := by
  show StableHlo.after hostOps0 (W0 m ρ c) (Proc.devRef .tc main_v22) = _
  after_results
  unfold Cert.ReferenceIdeal.Read.val_main_v13 Cert.ReferenceIdeal.Read.val_main_v12 Cert.ReferenceIdeal.Read.val_main_v11 Cert.ReferenceIdeal.Read.val_main_cst Cert.ReferenceIdeal.Read.val_main_v10 Cert.ReferenceIdeal.Read.val_main_v9 Cert.ReferenceIdeal.Read.val_main_v8 Cert.ReferenceIdeal.Read.val_main_v7 Cert.ReferenceIdeal.Read.val_main_v6 Cert.ReferenceIdeal.Read.val_main_c_0 Cert.ReferenceIdeal.Read.val_main_v5 Cert.ReferenceIdeal.Read.val_main_v4 Cert.ReferenceIdeal.Read.val_main_c Cert.ReferenceIdeal.Read.val_main_v3 Cert.ReferenceIdeal.Read.val_main_v2 Cert.ReferenceIdeal.Read.val_main_v1 Cert.ReferenceIdeal.Read.val_main_v0
  rfl

theorem in0_1 : (V1 m ρ c (Pipeline.arrRef spec0 1) : S50000x32.Idx → EReal) = (m ((c.tc : Thread nD τ).loc main_arg0)) := by
  show StableHlo.after hostOps0 (W0 m ρ c) (Proc.devRef .tc main_arg0) = _
  after_results

set_option maxHeartbeats 4000000 in
theorem in0_2 : (V1 m ρ c (Pipeline.arrRef spec0 2) : S50000x1.Idx → EReal) = countCol (m ((c.tc : Thread nD τ).loc main_arg1)) := by
  show StableHlo.after hostOps0 (W0 m ρ c) (Proc.devRef .tc main_v10) = _
  after_results
  unfold countCol Cert.ReferenceIdeal.Read.val_main_v16 Cert.ReferenceIdeal.Read.val_main_v3 Cert.ReferenceIdeal.Read.val_main_v2
  rfl

theorem in0_3 : (V1 m ρ c (Pipeline.arrRef spec0 3) : S32x64.Idx → EReal) = (m ((c.tc : Thread nD τ).loc main_arg2)) := by
  show StableHlo.after hostOps0 (W0 m ρ c) (Proc.devRef .tc main_arg2) = _
  after_results

theorem in0_4 : (V1 m ρ c (Pipeline.arrRef spec0 4) : S32x64.Idx → EReal) = (m ((c.tc : Thread nD τ).loc main_arg4)) := by
  show StableHlo.after hostOps0 (W0 m ρ c) (Proc.devRef .tc main_arg4) = _
  after_results

theorem in0_5 : (V1 m ρ c (Pipeline.arrRef spec0 5) : S1x64.Idx → EReal)
    = shapeCast S1x64 (m ((c.tc : Thread nD τ).loc main_arg3)) shapeCasts_S64_S1x64 := by
  show StableHlo.after hostOps0 (W0 m ρ c) (Proc.devRef .tc main_v23) = _
  after_results
  rfl

/-- The first call's output array: stage 0 of the first aggregate, the node rows, the count column, the two weights
    and the bias row. -/
def layer0 : S50000x64.Idx → EReal :=
  Blocks0.G (Cert.ReferenceIdeal.Read.val_main_v13 (F := Ideal) (m ((c.tc : Thread nD τ).loc main_arg0)) (m ((c.tc : Thread nD τ).loc main_arg1))) (m ((c.tc : Thread nD τ).loc main_arg0)) (countCol (m ((c.tc : Thread nD τ).loc main_arg1)))
    (m ((c.tc : Thread nD τ).loc main_arg2)) (m ((c.tc : Thread nD τ).loc main_arg4)) (shapeCast S1x64 (m ((c.tc : Thread nD τ).loc main_arg3)) shapeCasts_S64_S1x64)

theorem out0 : (W2 m ρ c (Proc.devRef .tc main_v24) : S50000x64.Idx → EReal) = layer0 m c := by
  show W2 m ρ c (Proc.devRef .tc (Pipeline.arrRef spec0 6)) = _
  rw [W2_arr m ρ c 6, Blocks0.final (V1 m ρ) c, in0_0, in0_1, in0_2, in0_3, in0_4, in0_5]
  rfl

/-! ## Buffers the first pallas_call does not write, read past it -/

theorem past0_v1 : W2 m ρ c (Proc.devRef .tc main_v1) = Cert.ReferenceIdeal.Read.val_main_v1 (F := Ideal) (m ((c.tc : Thread nD τ).loc main_arg1)) := by
  rw [W2_of_ne m ρ c main_v1 (by decide)]
  show StableHlo.after hostOps0 (W0 m ρ c) (Proc.devRef .tc main_v1) = _
  after_results
  rfl

theorem past0_v3 : W2 m ρ c (Proc.devRef .tc main_v3) = Cert.ReferenceIdeal.Read.val_main_v3 (F := Ideal) (m ((c.tc : Thread nD τ).loc main_arg1)) := by
  rw [W2_of_ne m ρ c main_v3 (by decide)]
  show StableHlo.after hostOps0 (W0 m ρ c) (Proc.devRef .tc main_v3) = _
  after_results
  rfl

theorem past0_v10 : (W2 m ρ c (Proc.devRef .tc main_v10) : S50000x1.Idx → EReal) = countCol (m ((c.tc : Thread nD τ).loc main_arg1)) :=
  ((W2_arr m ρ c 2).trans (((dat0 (V1 m ρ) c).arrAt_in 2 rfl _).trans (A_eq0 (V1 m ρ) c 2))).trans (in0_2 m ρ c)

theorem past0_arg5 : W2 m ρ c (Proc.devRef .tc main_arg5) = (m ((c.tc : Thread nD τ).loc main_arg5)) := by
  rw [W2_of_ne m ρ c main_arg5 (by decide)]
  show StableHlo.after hostOps0 (W0 m ρ c) (Proc.devRef .tc main_arg5) = _
  after_results

theorem past0_arg6 : W2 m ρ c (Proc.devRef .tc main_arg6) = (m ((c.tc : Thread nD τ).loc main_arg6)) := by
  rw [W2_of_ne m ρ c main_arg6 (by decide)]
  show StableHlo.after hostOps0 (W0 m ρ c) (Proc.devRef .tc main_arg6) = _
  after_results

theorem past0_arg7 : W2 m ρ c (Proc.devRef .tc main_arg7) = (m ((c.tc : Thread nD τ).loc main_arg7)) := by
  rw [W2_of_ne m ρ c main_arg7 (by decide)]
  show StableHlo.after hostOps0 (W0 m ρ c) (Proc.devRef .tc main_arg7) = _
  after_results

theorem past0_arg8 : W2 m ρ c (Proc.devRef .tc main_arg8) = (m ((c.tc : Thread nD τ).loc main_arg8)) := by
  rw [W2_of_ne m ρ c main_arg8 (by decide)]
  show StableHlo.after hostOps0 (W0 m ρ c) (Proc.devRef .tc main_arg8) = _
  after_results

theorem past0_arg9 : W2 m ρ c (Proc.devRef .tc main_arg9) = (m ((c.tc : Thread nD τ).loc main_arg9)) := by
  rw [W2_of_ne m ρ c main_arg9 (by decide)]
  show StableHlo.after hostOps0 (W0 m ρ c) (Proc.devRef .tc main_arg9) = _
  after_results

theorem past0_arg10 : W2 m ρ c (Proc.devRef .tc main_arg10) = (m ((c.tc : Thread nD τ).loc main_arg10)) := by
  rw [W2_of_ne m ρ c main_arg10 (by decide)]
  show StableHlo.after hostOps0 (W0 m ρ c) (Proc.devRef .tc main_arg10) = _
  after_results

theorem past0_arg11 : W2 m ρ c (Proc.devRef .tc main_arg11) = (m ((c.tc : Thread nD τ).loc main_arg11)) := by
  rw [W2_of_ne m ρ c main_arg11 (by decide)]
  show StableHlo.after hostOps0 (W0 m ρ c) (Proc.devRef .tc main_arg11) = _
  after_results

/-! ## The arrays the second pallas_call finds -/

set_option maxHeartbeats 4000000 in
theorem in1_0 : (V3 m ρ c (Pipeline.arrRef spec1 0) : S50000x64.Idx → EReal) = aggOf (m ((c.tc : Thread nD τ).loc main_arg1)) (layer0 m c) := by
  show StableHlo.after hostOps1 (W2 m ρ c) (Proc.devRef .tc main_v35) = _
  after_results
  rw [past0_v1, past0_v3, out0]
  unfold aggOf Cert.ReferenceIdeal.Read.val_main_v42 Cert.ReferenceIdeal.Read.val_main_v41 Cert.ReferenceIdeal.Read.val_main_cst_7 Cert.ReferenceIdeal.Read.val_main_v39 Cert.ReferenceIdeal.Read.val_main_v38 Cert.ReferenceIdeal.Read.val_main_v37 Cert.ReferenceIdeal.Read.val_main_v36 Cert.ReferenceIdeal.Read.val_main_c_6 Cert.ReferenceIdeal.Read.val_main_v35 Cert.ReferenceIdeal.Read.val_main_v34 Cert.ReferenceIdeal.Read.val_main_c_5
  rfl

theorem in1_1 : (V3 m ρ c (Pipeline.arrRef spec1 1) : S50000x64.Idx → EReal) = layer0 m c := by
  show StableHlo.after hostOps1 (W2 m ρ c) (Proc.devRef .tc main_v24) = _
  after_results
  exact out0 m ρ c

theorem in1_2 : (V3 m ρ c (Pipeline.arrRef spec1 2) : S50000x1.Idx → EReal) = countCol (m ((c.tc : Thread nD τ).loc main_arg1)) := by
  show StableHlo.after hostOps1 (W2 m ρ c) (Proc.devRef .tc main_v10) = _
  after_results
  exact past0_v10 m ρ c

theorem in1_3 : (V3 m ρ c (Pipeline.arrRef spec1 3) : S64x64.Idx → EReal) = (m ((c.tc : Thread nD τ).loc main_arg5)) := by
  show StableHlo.after hostOps1 (W2 m ρ c) (Proc.devRef .tc main_arg5) = _
  after_results
  exact past0_arg5 m ρ c

theorem in1_4 : (V3 m ρ c (Pipeline.arrRef spec1 4) : S64x64.Idx → EReal) = (m ((c.tc : Thread nD τ).loc main_arg7)) := by
  show StableHlo.after hostOps1 (W2 m ρ c) (Proc.devRef .tc main_arg7) = _
  after_results
  exact past0_arg7 m ρ c

theorem in1_5 : (V3 m ρ c (Pipeline.arrRef spec1 5) : S1x64.Idx → EReal)
    = shapeCast S1x64 (m ((c.tc : Thread nD τ).loc main_arg6)) shapeCasts_S64_S1x64 := by
  show StableHlo.after hostOps1 (W2 m ρ c) (Proc.devRef .tc main_v37) = _
  after_results
  rw [past0_arg6]
  rfl

theorem in1_6 : (V3 m ρ c (Pipeline.arrRef spec1 6) : S64x32.Idx → EReal) = (m ((c.tc : Thread nD τ).loc main_arg8)) := by
  show StableHlo.after hostOps1 (W2 m ρ c) (Proc.devRef .tc main_arg8) = _
  after_results
  exact past0_arg8 m ρ c

theorem in1_7 : (V3 m ρ c (Pipeline.arrRef spec1 7) : S1x32.Idx → EReal)
    = shapeCast S1x32 (m ((c.tc : Thread nD τ).loc main_arg9)) shapeCasts_S32_S1x32 := by
  show StableHlo.after hostOps1 (W2 m ρ c) (Proc.devRef .tc main_v38) = _
  after_results
  rw [past0_arg9]
  rfl

theorem in1_8 : (V3 m ρ c (Pipeline.arrRef spec1 8) : S1x32.Idx → EReal)
    = shapeCast S1x32 (m ((c.tc : Thread nD τ).loc main_arg10)) shapeCasts_S32x1_S1x32 := by
  show StableHlo.after hostOps1 (W2 m ρ c) (Proc.devRef .tc main_v36) = _
  after_results
  rw [past0_arg10]
  rfl

theorem in1_9 : (V3 m ρ c (Pipeline.arrRef spec1 9) : S1x1.Idx → EReal)
    = shapeCast S1x1 (m ((c.tc : Thread nD τ).loc main_arg11)) shapeCasts_S1_S1x1 := by
  show StableHlo.after hostOps1 (W2 m ρ c) (Proc.devRef .tc main_v39) = _
  after_results
  rw [past0_arg11]
  rfl

/-- The second call's output array: stage 1 of the second aggregate, the layer-0 rows, the count column, and the
    weights and reshaped biases. -/
def logits : S50000x1.Idx → EReal :=
  Blocks1.G (aggOf (m ((c.tc : Thread nD τ).loc main_arg1)) (layer0 m c)) (layer0 m c) (countCol (m ((c.tc : Thread nD τ).loc main_arg1))) (m ((c.tc : Thread nD τ).loc main_arg5)) (m ((c.tc : Thread nD τ).loc main_arg7))
    (shapeCast S1x64 (m ((c.tc : Thread nD τ).loc main_arg6)) shapeCasts_S64_S1x64) (m ((c.tc : Thread nD τ).loc main_arg8)) (shapeCast S1x32 (m ((c.tc : Thread nD τ).loc main_arg9)) shapeCasts_S32_S1x32)
    (shapeCast S1x32 (m ((c.tc : Thread nD τ).loc main_arg10)) shapeCasts_S32x1_S1x32) (shapeCast S1x1 (m ((c.tc : Thread nD τ).loc main_arg11)) shapeCasts_S1_S1x1)

/-- THE RESULT's buffer after @main: the closing reshape of the second call's output array. -/
theorem result_eq : (W5 m ρ c (Proc.devRef .tc main_v41) : S50000.Idx → EReal)
    = shapeCast S50000 (logits m c) shapeCasts_S50000x1_S50000 := by
  show StableHlo.after hostOps2 (W4 m ρ c) (Proc.devRef .tc main_v41) = _
  after_results
  have h : (W4 m ρ c (Proc.devRef .tc main_v40) : S50000x1.Idx → EReal) = logits m c := by
    show W4 m ρ c (Proc.devRef .tc (Pipeline.arrRef spec1 10)) = _
    rw [W4_arr m ρ c 10, Blocks1.final (V3 m ρ) c, in1_0, in1_1, in1_2, in1_3, in1_4, in1_5, in1_6, in1_7, in1_8, in1_9]
    rfl
  rw [h]
  rfl

end Cert.KernelIdeal.HostValue

end
-- ==== Proof.RefRows.lean ====
/-
  The reference's two stages at one entry, on the extended reals.

  The reference works on whole arrays: 50000 node rows at once. Read at row r, its layer-0 output and its logit are
  the stages' row functions of row r of the scattered sums (left as they are), of the node rows, of the floored
  in-degree count, and of the weights and biases. Its sums start from the zero word, which adds nothing; its matrix
  products are sums over the contracted axis; its broadcasts read the entry of the same row or the same column.
-/
import proofs.«178465_j15985868275842_2_alg».proof.Proof.Gen.ReferenceIdeal.Read
import proofs.«178465_j15985868275842_2_alg».proof.Proof.Spec

set_option maxRecDepth 16384

noncomputable section

open scoped BigOperators

namespace Cert.ReferenceIdeal.Rows

open Idealize.ShloMosaic Idealize.ShloMosaic.ValueIdx
open Cert.ReferenceIdeal Cert.ReferenceIdeal.Facts₀ Cert.ReferenceIdeal.Facts Cert.ReferenceIdeal.Read Cert.Sage

/-! ## Where each layout operation and each product reads, at a row and a column -/

theorem i_v31 (r : Fin 50000) (j : Fin 64) : idx_main_v31 (ix2 r j) = ix2 r (0 : Fin 1) :=
  funext fun a => Fin.ext (by match a with | ⟨0, _⟩ => rfl | ⟨1, _⟩ => rfl)
theorem i_call0_v2 (r : Fin 50000) (u : Fin 1) : idx_main_call0_v2 (ix2 r u) = ix1 r :=
  funext fun a => Fin.ext (by match a with | ⟨0, _⟩ => rfl)
theorem i_call0_v1 (r : Fin 50000) (k : Fin 64) : idx_main_call0_v1 (ix1 r) k = ix2 r k :=
  funext fun a => Fin.ext (by match a with | ⟨0, _⟩ => rfl | ⟨1, _⟩ => rfl)
theorem i_v26 (r : Fin 50000) (j : Fin 64) : idx_main_v26 (ix2 r j) = ix2 (0 : Fin 1) j :=
  funext fun a => Fin.ext (by match a with | ⟨0, _⟩ => rfl | ⟨1, _⟩ => rfl)
theorem i_v25 (u : Fin 1) (j : Fin 64) : idx_main_v25 (ix2 u j) = ix1 j :=
  funext fun a => Fin.ext (by match a with | ⟨0, _⟩ => rfl)
theorem l_v22 (r : Fin 50000) (j : Fin 64) (k : Fin 32) : lidx_main_v22 (ix2 r j) k = ix2 r k :=
  funext fun a => Fin.ext (by match a with | ⟨0, _⟩ => rfl | ⟨1, _⟩ => rfl)
theorem r_v22 (r : Fin 50000) (j : Fin 64) (k : Fin 32) : ridx_main_v22 (ix2 r j) k = ix2 k j :=
  funext fun a => Fin.ext (by match a with | ⟨0, _⟩ => rfl | ⟨1, _⟩ => rfl)
theorem l_v23 (r : Fin 50000) (j : Fin 64) (k : Fin 32) : lidx_main_v23 (ix2 r j) k = ix2 r k :=
  funext fun a => Fin.ext (by match a with | ⟨0, _⟩ => rfl | ⟨1, _⟩ => rfl)
theorem r_v23 (r : Fin 50000) (j : Fin 64) (k : Fin 32) : ridx_main_v23 (ix2 r j) k = ix2 k j :=
  funext fun a => Fin.ext (by match a with | ⟨0, _⟩ => rfl | ⟨1, _⟩ => rfl)
theorem i_v20 (r : Fin 50000) (k : Fin 32) : idx_main_v20 (ix2 r k) = ix2 r (0 : Fin 1) :=
  funext fun a => Fin.ext (by match a with | ⟨0, _⟩ => rfl | ⟨1, _⟩ => rfl)
theorem i_v72 (r : Fin 50000) : idx_main_v72 (ix1 r) = ix2 r (0 : Fin 1) :=
  funext fun a => Fin.ext (by match a with | ⟨0, _⟩ => exact Nat.div_one _ | ⟨1, _⟩ => rfl)
theorem l_v68 (r : Fin 50000) (u : Fin 1) (k : Fin 32) : lidx_main_v68 (ix2 r u) k = ix2 r k :=
  funext fun a => Fin.ext (by match a with | ⟨0, _⟩ => rfl | ⟨1, _⟩ => rfl)
theorem r_v68 (r : Fin 50000) (u : Fin 1) (k : Fin 32) : ridx_main_v68 (ix2 r u) k = ix2 k u :=
  funext fun a => Fin.ext (by match a with | ⟨0, _⟩ => rfl | ⟨1, _⟩ => rfl)
theorem i_v70 (r : Fin 50000) (u : Fin 1) : idx_main_v70 (ix2 r u) = ix2 (0 : Fin 1) (0 : Fin 1) :=
  funext fun a => Fin.ext (by match a with | ⟨0, _⟩ => rfl | ⟨1, _⟩ => rfl)
theorem i_v69 (u u' : Fin 1) : idx_main_v69 (ix2 u u') = ix1 (0 : Fin 1) :=
  funext fun a => Fin.ext (by match a with | ⟨0, _⟩ => rfl)
theorem l_v63 (r : Fin 50000) (q : Fin 32) (k : Fin 64) : lidx_main_v63 (ix2 r q) k = ix2 r k :=
  funext fun a => Fin.ext (by match a with | ⟨0, _⟩ => rfl | ⟨1, _⟩ => rfl)
theorem r_v63 (r : Fin 50000) (q : Fin 32) (k : Fin 64) : ridx_main_v63 (ix2 r q) k = ix2 k q :=
  funext fun a => Fin.ext (by match a with | ⟨0, _⟩ => rfl | ⟨1, _⟩ => rfl)
theorem i_v65 (r : Fin 50000) (q : Fin 32) : idx_main_v65 (ix2 r q) = ix2 (0 : Fin 1) q :=
  funext fun a => Fin.ext (by match a with | ⟨0, _⟩ => rfl | ⟨1, _⟩ => rfl)
theorem i_v64 (u : Fin 1) (q : Fin 32) : idx_main_v64 (ix2 u q) = ix1 q :=
  funext fun a => Fin.ext (by match a with | ⟨0, _⟩ => rfl)
theorem i_v61 (r : Fin 50000) (j : Fin 64) : idx_main_v61 (ix2 r j) = ix2 r (0 : Fin 1) :=
  funext fun a => Fin.ext (by match a with | ⟨0, _⟩ => rfl | ⟨1, _⟩ => rfl)
theorem i_call2_v2 (r : Fin 50000) (u : Fin 1) : idx_main_call2_v2 (ix2 r u) = ix1 r :=
  funext fun a => Fin.ext (by match a with | ⟨0, _⟩ => rfl)
theorem i_call2_v1 (r : Fin 50000) (k : Fin 64) : idx_main_call2_v1 (ix1 r) k = ix2 r k :=
  funext fun a => Fin.ext (by match a with | ⟨0, _⟩ => rfl | ⟨1, _⟩ => rfl)
theorem i_v56 (r : Fin 50000) (j : Fin 64) : idx_main_v56 (ix2 r j) = ix2 (0 : Fin 1) j :=
  funext fun a => Fin.ext (by match a with | ⟨0, _⟩ => rfl | ⟨1, _⟩ => rfl)
theorem i_v55 (u : Fin 1) (j : Fin 64) : idx_main_v55 (ix2 u j) = ix1 j :=
  funext fun a => Fin.ext (by match a with | ⟨0, _⟩ => rfl)
theorem l_v52 (r : Fin 50000) (j : Fin 64) (k : Fin 64) : lidx_main_v52 (ix2 r j) k = ix2 r k :=
  funext fun a => Fin.ext (by match a with | ⟨0, _⟩ => rfl | ⟨1, _⟩ => rfl)
theorem r_v52 (r : Fin 50000) (j : Fin 64) (k : Fin 64) : ridx_main_v52 (ix2 r j) k = ix2 k j :=
  funext fun a => Fin.ext (by match a with | ⟨0, _⟩ => rfl | ⟨1, _⟩ => rfl)
theorem l_v53 (r : Fin 50000) (j : Fin 64) (k : Fin 64) : lidx_main_v53 (ix2 r j) k = ix2 r k :=
  funext fun a => Fin.ext (by match a with | ⟨0, _⟩ => rfl | ⟨1, _⟩ => rfl)
theorem r_v53 (r : Fin 50000) (j : Fin 64) (k : Fin 64) : ridx_main_v53 (ix2 r j) k = ix2 k j :=
  funext fun a => Fin.ext (by match a with | ⟨0, _⟩ => rfl | ⟨1, _⟩ => rfl)
theorem i_v50 (r : Fin 50000) (k : Fin 64) : idx_main_v50 (ix2 r k) = ix2 r (0 : Fin 1) :=
  funext fun a => Fin.ext (by match a with | ⟨0, _⟩ => rfl | ⟨1, _⟩ => rfl)

/-! ## Layer 0 -/

/-- The combined row of layer 0 at (r, j). -/
theorem combine0_apply (x0 : (⟨S50000x32, .f32⟩ : BufTy).Contents (Elt Ideal)) (x1 : (⟨S2x1600000, .i32⟩ : BufTy).Contents (Elt Ideal)) (x2 : (⟨S32x64, .f32⟩ : BufTy).Contents (Elt Ideal)) (x3 : (⟨S64, .f32⟩ : BufTy).Contents (Elt Ideal)) (x4 : (⟨S32x64, .f32⟩ : BufTy).Contents (Elt Ideal)) (r : Fin 50000) (j : Fin 64) :
    val_main_v27 (F := Ideal) x0 x1 x2 x3 x4 (ix2 r j)
      = combineRow (fun k => val_main_v13 (F := Ideal) x0 x1 (ix2 r k)) (fun k => x0 (ix2 r k))
          (val_main_v19 (F := Ideal) x1 (ix2 r (0 : Fin 1))) (fun k j => x2 (ix2 k j)) (fun k j => x4 (ix2 k j))
          (fun j => x3 (ix1 j)) j := by
  rw [val_main_v27_apply, val_main_v24_apply, val_main_v26_apply, val_main_v25_apply, val_main_v22_apply, val_main_v23_apply, i_v26, i_v25]
  unfold combineRow
  refine congrArg₂ (· + ·) (congrArg₂ (· + ·) (Finset.sum_congr rfl fun k _ => ?_) (Finset.sum_congr rfl fun k _ => ?_)) rfl
  · rw [val_main_v21_apply, val_main_v20_apply, l_v22, r_v22, i_v20]; rfl
  · rw [l_v23, r_v23]

/-- The normalized row of layer 0 at (r, j), over the combined row left as it is. -/
theorem norm0_apply (x0 : (⟨S50000x32, .f32⟩ : BufTy).Contents (Elt Ideal)) (x1 : (⟨S2x1600000, .i32⟩ : BufTy).Contents (Elt Ideal)) (x2 : (⟨S32x64, .f32⟩ : BufTy).Contents (Elt Ideal)) (x3 : (⟨S64, .f32⟩ : BufTy).Contents (Elt Ideal)) (x4 : (⟨S32x64, .f32⟩ : BufTy).Contents (Elt Ideal)) (r : Fin 50000) (j : Fin 64) :
    val_main_v32 (F := Ideal) x0 x1 x2 x3 x4 (ix2 r j) = normRow (fun j' => val_main_v27 (F := Ideal) x0 x1 x2 x3 x4 (ix2 r j')) j := by
  rw [val_main_v32_apply, val_main_v31_apply, val_main_v30_apply, val_main_v29_apply, val_main_cst_4_apply, val_main_v28_apply, val_main_call0_v2_apply, val_main_call0_v1_apply, val_main_call0_cst_apply, i_v31, i_call0_v2]
  rw [Ideal.hostDivf_def, Ideal.maximumf_def, Ideal.hostUnary_sqrt_def, Ideal.ofBits_def, Ideal.ofBits_def,
    Ideal.ofBits_zero_f32, zero_add]
  unfold normRow
  refine congrArg (fun z => Ideal.div (val_main_v27 (F := Ideal) x0 x1 x2 x3 x4 (ix2 r j)) (max (Ideal.sqrt z) floorWord)) ?_
  refine Finset.sum_congr rfl fun k _ => ?_
  rw [val_main_call0_v0_apply, i_call0_v1]; rfl

/-- Layer 0's clamped, normalized output at (r, j). -/
theorem stage0_apply (x0 : (⟨S50000x32, .f32⟩ : BufTy).Contents (Elt Ideal)) (x1 : (⟨S2x1600000, .i32⟩ : BufTy).Contents (Elt Ideal)) (x2 : (⟨S32x64, .f32⟩ : BufTy).Contents (Elt Ideal)) (x3 : (⟨S64, .f32⟩ : BufTy).Contents (Elt Ideal)) (x4 : (⟨S32x64, .f32⟩ : BufTy).Contents (Elt Ideal)) (r : Fin 50000) (j : Fin 64) :
    val_main_v33 (F := Ideal) x0 x1 x2 x3 x4 (ix2 r j)
      = stage0Row (fun k => val_main_v13 (F := Ideal) x0 x1 (ix2 r k)) (fun k => x0 (ix2 r k))
          (val_main_v19 (F := Ideal) x1 (ix2 r (0 : Fin 1))) (fun k j => x2 (ix2 k j)) (fun k j => x4 (ix2 k j))
          (fun j => x3 (ix1 j)) j := by
  rw [val_main_v33_apply, val_main_call1_v0_apply, val_main_call1_cst_apply, norm0_apply]
  unfold stage0Row
  refine congrArg (fun z => max z zeroWord) (congrArg (fun o => normRow o j) (funext fun j' => ?_))
  exact combine0_apply x0 x1 x2 x3 x4 r j'

/-! ## Layer 1 and the classifier -/

/-- The combined row of layer 1 at (r, j). -/
theorem combine1_apply (x0 : (⟨S50000x32, .f32⟩ : BufTy).Contents (Elt Ideal)) (x1 : (⟨S2x1600000, .i32⟩ : BufTy).Contents (Elt Ideal)) (x2 : (⟨S32x64, .f32⟩ : BufTy).Contents (Elt Ideal)) (x3 : (⟨S64, .f32⟩ : BufTy).Contents (Elt Ideal)) (x4 : (⟨S32x64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (r : Fin 50000) (j : Fin 64) :
    val_main_v57 (F := Ideal) x0 x1 x2 x3 x4 x5 x6 x7 (ix2 r j)
      = combineRow (fun k => val_main_v43 (F := Ideal) x0 x1 x2 x3 x4 (ix2 r k)) (fun k => val_main_v33 (F := Ideal) x0 x1 x2 x3 x4 (ix2 r k))
          (val_main_v49 (F := Ideal) x1 (ix2 r (0 : Fin 1))) (fun k j => x5 (ix2 k j)) (fun k j => x7 (ix2 k j))
          (fun j => x6 (ix1 j)) j := by
  rw [val_main_v57_apply, val_main_v54_apply, val_main_v56_apply, val_main_v55_apply, val_main_v52_apply, val_main_v53_apply, i_v56, i_v55]
  unfold combineRow
  refine congrArg₂ (· + ·) (congrArg₂ (· + ·) (Finset.sum_congr rfl fun k _ => ?_) (Finset.sum_congr rfl fun k _ => ?_)) rfl
  · rw [val_main_v51_apply, val_main_v50_apply, l_v52, r_v52, i_v50]; rfl
  · rw [l_v53, r_v53]

/-- The normalized row of layer 1 at (r, j), over the combined row left as it is. -/
theorem norm1_apply (x0 : (⟨S50000x32, .f32⟩ : BufTy).Contents (Elt Ideal)) (x1 : (⟨S2x1600000, .i32⟩ : BufTy).Contents (Elt Ideal)) (x2 : (⟨S32x64, .f32⟩ : BufTy).Contents (Elt Ideal)) (x3 : (⟨S64, .f32⟩ : BufTy).Contents (Elt Ideal)) (x4 : (⟨S32x64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (r : Fin 50000) (j : Fin 64) :
    val_main_v62 (F := Ideal) x0 x1 x2 x3 x4 x5 x6 x7 (ix2 r j) = normRow (fun j' => val_main_v57 (F := Ideal) x0 x1 x2 x3 x4 x5 x6 x7 (ix2 r j')) j := by
  rw [val_main_v62_apply, val_main_v61_apply, val_main_v60_apply, val_main_v59_apply, val_main_cst_11_apply, val_main_v58_apply, val_main_call2_v2_apply, val_main_call2_v1_apply, val_main_call2_cst_apply, i_v61, i_call2_v2]
  rw [Ideal.hostDivf_def, Ideal.maximumf_def, Ideal.hostUnary_sqrt_def, Ideal.ofBits_def, Ideal.ofBits_def,
    Ideal.ofBits_zero_f32, zero_add]
  unfold normRow
  refine congrArg (fun z => Ideal.div (val_main_v57 (F := Ideal) x0 x1 x2 x3 x4 x5 x6 x7 (ix2 r j)) (max (Ideal.sqrt z) floorWord)) ?_
  refine Finset.sum_congr rfl fun k _ => ?_
  rw [val_main_call2_v0_apply, i_call2_v1]; rfl

/-- The hidden layer at (r, q), over the normalized row left as it is. -/
theorem hidden_apply (x0 : (⟨S50000x32, .f32⟩ : BufTy).Contents (Elt Ideal)) (x1 : (⟨S2x1600000, .i32⟩ : BufTy).Contents (Elt Ideal)) (x2 : (⟨S32x64, .f32⟩ : BufTy).Contents (Elt Ideal)) (x3 : (⟨S64, .f32⟩ : BufTy).Contents (Elt Ideal)) (x4 : (⟨S32x64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (x8 : (⟨S64x32, .f32⟩ : BufTy).Contents (Elt Ideal)) (x9 : (⟨S32, .f32⟩ : BufTy).Contents (Elt Ideal)) (r : Fin 50000) (q : Fin 32) :
    val_main_v67 (F := Ideal) x0 x1 x2 x3 x4 x5 x6 x7 x8 x9 (ix2 r q)
      = max ((∑ k : Fin 64, val_main_v62 (F := Ideal) x0 x1 x2 x3 x4 x5 x6 x7 (ix2 r k) * x8 (ix2 k q)) + x9 (ix1 q)) zeroWord := by
  rw [val_main_v67_apply, val_main_call3_v0_apply, val_main_call3_cst_apply, val_main_v66_apply, val_main_v63_apply, val_main_v65_apply, val_main_v64_apply, i_v65, i_v64]
  refine congrArg (fun z => max (z + x9 (ix1 q)) zeroWord) (Finset.sum_congr rfl fun k _ => ?_)
  rw [l_v63, r_v63]

/-- The logit at node r, over the hidden layer left as it is. -/
theorem logit_apply (x0 : (⟨S50000x32, .f32⟩ : BufTy).Contents (Elt Ideal)) (x1 : (⟨S2x1600000, .i32⟩ : BufTy).Contents (Elt Ideal)) (x2 : (⟨S32x64, .f32⟩ : BufTy).Contents (Elt Ideal)) (x3 : (⟨S64, .f32⟩ : BufTy).Contents (Elt Ideal)) (x4 : (⟨S32x64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (x8 : (⟨S64x32, .f32⟩ : BufTy).Contents (Elt Ideal)) (x9 : (⟨S32, .f32⟩ : BufTy).Contents (Elt Ideal)) (x10 : (⟨S32x1, .f32⟩ : BufTy).Contents (Elt Ideal)) (x11 : (⟨S1, .f32⟩ : BufTy).Contents (Elt Ideal)) (r : Fin 50000) :
    val_main_v72 (F := Ideal) x0 x1 x2 x3 x4 x5 x6 x7 x8 x9 x10 x11 (ix1 r)
      = (∑ q : Fin 32, val_main_v67 (F := Ideal) x0 x1 x2 x3 x4 x5 x6 x7 x8 x9 (ix2 r q) * x10 (ix2 q (0 : Fin 1))) + x11 (ix1 (0 : Fin 1)) := by
  rw [val_main_v72_apply, i_v72, val_main_v71_apply, val_main_v68_apply, val_main_v70_apply, val_main_v69_apply, i_v70, i_v69]
  refine congrArg (· + x11 (ix1 (0 : Fin 1))) (Finset.sum_congr rfl fun q _ => ?_)
  rw [l_v68, r_v68]

/-- The logit at node r is stage 1's row function. -/
theorem stage1_apply (x0 : (⟨S50000x32, .f32⟩ : BufTy).Contents (Elt Ideal)) (x1 : (⟨S2x1600000, .i32⟩ : BufTy).Contents (Elt Ideal)) (x2 : (⟨S32x64, .f32⟩ : BufTy).Contents (Elt Ideal)) (x3 : (⟨S64, .f32⟩ : BufTy).Contents (Elt Ideal)) (x4 : (⟨S32x64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (x8 : (⟨S64x32, .f32⟩ : BufTy).Contents (Elt Ideal)) (x9 : (⟨S32, .f32⟩ : BufTy).Contents (Elt Ideal)) (x10 : (⟨S32x1, .f32⟩ : BufTy).Contents (Elt Ideal)) (x11 : (⟨S1, .f32⟩ : BufTy).Contents (Elt Ideal)) (r : Fin 50000) :
    val_main_v72 (F := Ideal) x0 x1 x2 x3 x4 x5 x6 x7 x8 x9 x10 x11 (ix1 r)
      = stage1Row (fun k => val_main_v43 (F := Ideal) x0 x1 x2 x3 x4 (ix2 r k)) (fun k => val_main_v33 (F := Ideal) x0 x1 x2 x3 x4 (ix2 r k))
          (val_main_v49 (F := Ideal) x1 (ix2 r (0 : Fin 1))) (fun k j => x5 (ix2 k j)) (fun k j => x7 (ix2 k j))
          (fun j => x6 (ix1 j)) (fun k q => x8 (ix2 k q)) (fun q => x9 (ix1 q)) (fun q => x10 (ix2 q (0 : Fin 1)))
          (x11 (ix1 (0 : Fin 1))) := by
  rw [logit_apply]
  unfold stage1Row
  refine congrArg (· + x11 (ix1 (0 : Fin 1))) (Finset.sum_congr rfl fun q _ => ?_)
  rw [hidden_apply]
  refine congrArg (fun z => max (z + x9 (ix1 q)) zeroWord * x10 (ix2 q (0 : Fin 1))) (Finset.sum_congr rfl fun k _ => ?_)
  rw [norm1_apply]
  refine congrArg (fun o => normRow o k * x8 (ix2 k q)) (funext fun j' => ?_)
  exact combine1_apply x0 x1 x2 x3 x4 x5 x6 x7 r j'

end Cert.ReferenceIdeal.Rows

end
-- ==== Proof.LibScatterGather.lean ====
/-
  Row scatter-add and row gather, read at an index. A table of N rows of width C; E row numbers, held as an
  [E, 1] array of integer words; E update rows of width C.
  Scatter-add: update element (e, k') lands on table element (i, k) exactly when the signed reading of word e
  is i and k' = k, so table element (i, k) receives the sum over those e whose word reads i of update (e, k).
  Gather: result element (e, k) is table element (r, k) with r the signed reading of word e clamped into [0, N - 1].
-/
import Idealize.ShloMosaic.PureOps.Ideal
import Idealize.ShloMosaic.PureOps.Ideal.Laws
import Idealize.ShloMosaic.Lib.ValueIdx
import Idealize.ShloMosaic.Lib.ReduceAll

noncomputable section

open scoped BigOperators

namespace Cert.ScatterGather

open Idealize.ShloMosaic Idealize.ShloMosaic.ValueIdx

/-! ## Scatter-add along rows -/

/-- The dimension numbers of a scatter of whole rows: the update's axis 1 is the window, the table's axis 0 is
    the scattered one, one index word per update row. -/
abbrev rowScatter (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section Scatter
variable {N E C w : Nat} (wf : ScatterDims.WF ⟨2, ![N, C]⟩ ⟨2, ![E, 1]⟩ ⟨2, ![E, C]⟩ [1] [0] [0] 1)
  (idx : IVec ⟨2, ![E, 1]⟩ w) (e : Fin E) (k' : Fin C)

/-- On the row axis the window of update element (e, k') starts at the signed reading of word e. -/
theorem start_row : (rowScatter N E C wf).start (ix2 e k') idx 0 = (idx (ix2 e 0)).toInt := by
  unfold ScatterDims.start
  rw [dif_pos (show (0 : Fin 2) ∈ (rowScatter N E C wf).scatterDimsToOperandDims from List.mem_singleton.mpr rfl)]
  have hsi : (rowScatter N E C wf).siIdx (ix2 e k') ⟨List.idxOf (0 : Fin 2) (rowScatter N E C wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- On the column axis it starts at 0. -/
theorem start_col : (rowScatter N E C wf).start (ix2 e k') idx 1 = 0 := rfl

/-- The window coordinate on the row axis is 0 … -/
theorem window_row : (rowScatter N E C wf).window (ix2 e k') 0 = 0 := rfl

/-- … and on the column axis it is k'. -/
theorem window_col : (rowScatter N E C wf).window (ix2 e k') 1 = k'.val := rfl

end Scatter

section ScatterIdx
variable {N E C w : Nat} (wf : ScatterDims.WF ⟨2, ![N, C]⟩ ⟨2, ![E, 1]⟩ ⟨2, ![E, C]⟩ [1] [0] [0] 1)
  (idx : IVec ⟨2, ![E, 1]⟩ w)

/-- WHERE AN UPDATE ELEMENT LANDS: (e, k') lands on (i, k) exactly when word e reads i and k' = k. -/
theorem resultIdx_rows (e : Fin E) (k' : Fin C) (i : Fin N) (k : Fin C) :
    (rowScatter N E C wf).resultIdx? (ix2 e k') idx = some (ix2 i k) ↔ (idx (ix2 e 0)).toInt = (i.val : ℤ) ∧ k' = k := by
  unfold ScatterDims.resultIdx?
  split
  · rename_i h
    rw [Option.some.injEq]
    constructor
    · intro hf
      have h0 := congrArg Fin.val (congrFun hf 0)
      have h1 := congrArg Fin.val (congrFun hf 1)
      have g0 := (h 0).1
      simp only [start_row, window_row, start_col, window_col] at h0 h1 g0
      refine ⟨?_, Fin.ext ?_⟩
      · show (idx (ix2 e 0)).toInt = (i.val : ℤ)
        have : ((idx (ix2 e 0)).toInt + ((0 : ℕ) : ℤ)).toNat = i.val := h0
        omega
      · have : ((0 : ℤ) + (k'.val : ℤ)).toNat = k.val := h1
        omega
    · rintro ⟨hv, rfl⟩
      funext a; refine Fin.ext ?_
      match a with
      | ⟨0, _⟩ =>
        show ((rowScatter N E C wf).start (ix2 e k') idx 0 + ((rowScatter N E C wf).window (ix2 e k') 0 : ℤ)).toNat = i.val
        rw [start_row, window_row, hv]; omega
      | ⟨1, _⟩ =>
        show ((rowScatter N E C wf).start (ix2 e k') idx 1 + ((rowScatter N E C wf).window (ix2 e k') 1 : ℤ)).toNat = k'.val
        rw [start_col, window_col]; omega
  · rename_i h
    constructor
    · intro hf; exact absurd hf (by simp)
    · rintro ⟨hv, rfl⟩
      refine absurd (fun a => ?_) h
      match a with
      | ⟨0, _⟩ =>
        show 0 ≤ (rowScatter N E C wf).start (ix2 e k') idx 0 + ((rowScatter N E C wf).window (ix2 e k') 0 : ℤ) ∧
          (rowScatter N E C wf).start (ix2 e k') idx 0 + ((rowScatter N E C wf).window (ix2 e k') 0 : ℤ) < (N : ℤ)
        rw [start_row, window_row, hv]; have := i.isLt; omega
      | ⟨1, _⟩ =>
        show 0 ≤ (rowScatter N E C wf).start (ix2 e k') idx 1 + ((rowScatter N E C wf).window (ix2 e k') 1 : ℤ) ∧
          (rowScatter N E C wf).start (ix2 e k') idx 1 + ((rowScatter N E C wf).window (ix2 e k') 1 : ℤ) < (C : ℤ)
        rw [start_col, window_col]; have := k'.isLt; omega

/-- THE SCATTER-ADD READ AT (i, k): the table's element plus the updates (e, k) of the rows e whose word reads i. -/
theorem scatterAdd_rows_apply (x : (⟨2, ![N, C]⟩ : Shape).Idx → EReal) (upd : (⟨2, ![E, C]⟩ : Shape).Idx → EReal)
    (i : Fin N) (k : Fin C) :
    Ideal.hostScatterAdd (rowScatter N E C wf) x idx upd (ix2 i k)
      = x (ix2 i k) + ∑ e ∈ Finset.univ.filter (fun e : Fin E => (idx (ix2 e 0)).toInt = (i.val : ℤ)), upd (ix2 e k) := by
  unfold Ideal.hostScatterAdd
  congr 1
  rw [Finset.sum_filter, sum_idx2, Finset.sum_filter]
  refine Finset.sum_congr rfl fun e _ => ?_
  simp only [resultIdx_rows]
  by_cases hv : (idx (ix2 e 0)).toInt = (i.val : ℤ)
  · simp only [hv, true_and, if_true]
    rw [Finset.sum_ite_eq' Finset.univ k (fun b => upd (ix2 e b))]
    simp
  · simp only [hv, false_and, if_false, Finset.sum_const_zero]

end ScatterIdx

/-! ## Gather along rows -/

/-- The dimension numbers of a gather of whole rows: one index word per result row names a table row
    (slices of one row, all C columns), the result's axis 1 runs over the columns. -/
abbrev rowGather (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

section Gather
variable {α : Type} {N E C w : Nat}

/-- THE GATHER READ AT (e, k): the table at row "word e read signed, clamped into [0, N - 1]", column k. -/
theorem gather_rows_apply (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (k : Fin C) :
    Host.gather (rowGather N E C wf) x idx (ix2 e k)
      = x (ix2 ⟨min (idx (ix2 e 0)).toInt.toNat (N - 1), by omega⟩ k) := by
  unfold Host.gather
  congr 1
  funext a
  refine Fin.ext ?_
  match a with
  | ⟨0, _⟩ =>
    show (rowGather N E C wf).start (ix2 e k) idx 0 + (rowGather N E C wf).batchCoord (ix2 e k) 0
        + (rowGather N E C wf).offCoord (ix2 e k) 0 = min (idx (ix2 e 0)).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather N E C wf).startIndexMap from List.mem_singleton.mpr rfl)]
    have hsi : (rowGather N E C wf).siIdx (ix2 e k) ⟨List.idxOf (0 : Fin 2) (rowGather N E C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowGather N E C wf).start (ix2 e k) idx 1 + (rowGather N E C wf).batchCoord (ix2 e k) 1
        + (rowGather N E C wf).offCoord (ix2 e k) 1 = k.val
    rw [GatherDims.batchCoord_eq_zero _ _ _ List.not_mem_nil]
    have hs : (rowGather N E C wf).start (ix2 e k) idx 1 = 0 := rfl
    have ho : (rowGather N E C wf).offCoord (ix2 e k) 1 = k.val := rfl
    rw [hs, ho]; omega

/-- The same, with the table's row named by the caller: any r whose number is the clamped reading of word e. -/
theorem gather_rows_apply_of_eq (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (k : Fin C) (r : Fin N)
    (hr : min (idx (ix2 e 0)).toInt.toNat (N - 1) = r.val) :
    Host.gather (rowGather N E C wf) x idx (ix2 e k) = x (ix2 r k) := by
  rw [gather_rows_apply hN wf]
  refine congrArg x (funext fun a => ?_)
  match a with
  | ⟨0, _⟩ => exact Fin.ext hr
  | ⟨1, _⟩ => rfl

end Gather

/-! ## Row lookup with a fill value for row numbers out of range

A lookup of rows of a table of 50000 rows by 800000 signed row numbers, in the form a lookup with "fill" mode
takes: a negative number is first wrapped by adding 50000; a row number that after that is outside [0, 49999]
gives a row of the fill value; otherwise the (clamped) gather gives the table's row. For a row number already
in [0, 50000) nothing is wrapped, both range tests pass, nothing is clamped, and the result is the table's row. -/

/-- A left fold by `and` over one-bit words that are all 1, started at 1, is 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self, show IntOp.andi 1#1 1#1 = 1#1 from by decide]
    exact foldl_andi_one f l fun n hn => h n (List.mem_cons_of_mem _ hn)

/-- A reduction by `and` from 1 is 1 at a result index when every element that reduces into it is 1. -/
theorem reduce_andi_eq_one_of_all {s t u : Shape} {axes : List (Fin s.rank)} (x : s.Idx → BitVec 1)
    (init : u.Idx → BitVec 1) (h : s.ReducesTo axes t) (hu : 0 < u.numel) (j : t.Idx)
    (hi : init (Shape.Idx.first hu) = 1#1) (hx : ∀ i, h.drop i = j → x i = 1#1) :
    Host.reduce IntOp.andi x init h hu j = 1#1 := by
  rw [Host.reduce_eq_foldl, hi]
  refine foldl_andi_one x _ fun i hi' => ?_
  rw [List.mem_filter] at hi'
  exact hx i (by simpa using hi'.2)

/-- A vector of 800000 entries broadcast along axis 0 of an [800000, m] array reads, at (e, c), its entry e. -/
theorem broadcast_rows_apply {α : Type} {m : Nat}
    (hb : (⟨1, ![800000]⟩ : Shape).BroadcastsInDim ⟨2, ![800000, m]⟩ (![0] : Fin 1 → Fin 2))
    (x : (⟨1, ![800000]⟩ : Shape).Idx → α) (i : (⟨2, ![800000, m]⟩ : Shape).Idx) :
    broadcastInDim ⟨2, ![800000, m]⟩ ![0] hb x i = x (ix1 (i 0)) := by
  unfold broadcastInDim
  refine congrArg x (funext fun a => Fin.ext ?_)
  match a with
  | ⟨0, _⟩ => rfl

section Take
variable {F : FTy → Type} [FloatOps F] {C : Nat}
  (hb0 : (⟨0, ![]⟩ : Shape).BroadcastsInDim ⟨1, ![800000]⟩ (![] : Fin 0 → Fin (⟨1, ![800000]⟩ : Shape).rank))
  (hb1 : (⟨1, ![800000]⟩ : Shape).BroadcastsInDim ⟨2, ![800000, 1]⟩ (![0] : Fin 1 → Fin (⟨2, ![800000, 1]⟩ : Shape).rank))
  (hb2 : (⟨0, ![]⟩ : Shape).BroadcastsInDim ⟨2, ![800000, 1]⟩ (![] : Fin 0 → Fin (⟨2, ![800000, 1]⟩ : Shape).rank))
  (hb3 : (⟨1, ![1]⟩ : Shape).BroadcastsInDim ⟨2, ![1, 1]⟩ (![1] : Fin 1 → Fin (⟨2, ![1, 1]⟩ : Shape).rank))
  (hb4 : (⟨2, ![1, 1]⟩ : Shape).BroadcastsInDim ⟨2, ![800000, 1]⟩ (![0, 1] : Fin 2 → Fin (⟨2, ![800000, 1]⟩ : Shape).rank))
  (hr : (⟨2, ![800000, 1]⟩ : Shape).ReducesTo [1] ⟨1, ![800000]⟩)
  (hu : 0 < (⟨0, ![]⟩ : Shape).numel)
  (hb5 : (⟨1, ![800000]⟩ : Shape).BroadcastsInDim ⟨2, ![800000, C]⟩ (![0] : Fin 1 → Fin (⟨2, ![800000, C]⟩ : Shape).rank))
  (hb6 : (⟨0, ![]⟩ : Shape).BroadcastsInDim ⟨2, ![800000, C]⟩ (![] : Fin 0 → Fin (⟨2, ![800000, C]⟩ : Shape).rank))
  (wf : GatherDims.WF ⟨2, ![50000, C]⟩ ⟨2, ![800000, 1]⟩ ⟨2, ![800000, C]⟩ [1] [0] [] [0] [] 1 ![1, C])

/-- The lookup: wrap negative row numbers, make the row numbers a column, test each against [0, 49999], gather the
    rows, and put the fill value (the pattern 0x7FC00000) where the test failed. -/
def takeFill (T : FVec F ⟨2, ![50000, C]⟩ .f32) (s : IVec ⟨1, ![800000]⟩ 32) : FVec F ⟨2, ![800000, C]⟩ .f32 :=
  select
    (broadcastInDim ⟨2, ![800000, C]⟩ ![0] hb5
      (Host.reduce IntOp.andi
        (andi
          (cmpi .sge
            (broadcastInDim ⟨2, ![800000, 1]⟩ ![0] hb1
              (select (cmpi .slt s (broadcastInDim ⟨1, ![800000]⟩ ![] hb0 (constantI ⟨0, ![]⟩ 32 0#32)))
                (addi s (broadcastInDim ⟨1, ![800000]⟩ ![] hb0 (constantI ⟨0, ![]⟩ 32 50000#32))) s))
            (broadcastInDim ⟨2, ![800000, 1]⟩ ![] hb2 (constantI ⟨0, ![]⟩ 32 0#32)))
          (cmpi .sle
            (broadcastInDim ⟨2, ![800000, 1]⟩ ![0] hb1
              (select (cmpi .slt s (broadcastInDim ⟨1, ![800000]⟩ ![] hb0 (constantI ⟨0, ![]⟩ 32 0#32)))
                (addi s (broadcastInDim ⟨1, ![800000]⟩ ![] hb0 (constantI ⟨0, ![]⟩ 32 50000#32))) s))
            (broadcastInDim ⟨2, ![800000, 1]⟩ ![0, 1] hb4
              (broadcastInDim ⟨2, ![1, 1]⟩ ![1] hb3 (constantI ⟨1, ![1]⟩ 32 49999#32)))))
        (constantI ⟨0, ![]⟩ 1 1#1) hr hu))
    (Host.gather (rowGather 50000 800000 C wf) T
      (broadcastInDim ⟨2, ![800000, 1]⟩ ![0] hb1
        (select (cmpi .slt s (broadcastInDim ⟨1, ![800000]⟩ ![] hb0 (constantI ⟨0, ![]⟩ 32 0#32)))
          (addi s (broadcastInDim ⟨1, ![800000]⟩ ![] hb0 (constantI ⟨0, ![]⟩ 32 50000#32))) s)))
    (broadcastInDim ⟨2, ![800000, C]⟩ ![] hb6 (constant ⟨0, ![]⟩ .f32 0x7FC00000#32))

/-- A nonnegative row number is not wrapped. -/
theorem wrap_apply (s : IVec ⟨1, ![800000]⟩ 32) (j : (⟨1, ![800000]⟩ : Shape).Idx) (h0 : 0 ≤ (s j).toInt) :
    select (cmpi .slt s (broadcastInDim ⟨1, ![800000]⟩ ![] hb0 (constantI ⟨0, ![]⟩ 32 0#32)))
      (addi s (broadcastInDim ⟨1, ![800000]⟩ ![] hb0 (constantI ⟨0, ![]⟩ 32 50000#32))) s j = s j := by
  show Scalar.select (IntOp.cmpi .slt (s j) 0#32) _ _ = s j
  unfold Scalar.select
  rw [if_neg]
  intro hc
  have := IntOp.cmpi_slt.1 hc
  rw [show (0#32 : BitVec 32).toInt = 0 from by decide] at this
  omega

/-- THE LOOKUP READ AT (e, k), for a row number in [0, 50000): the table's row of that number, column k. -/
theorem takeFill_apply (T : FVec F ⟨2, ![50000, C]⟩ .f32) (s : IVec ⟨1, ![800000]⟩ 32) (e : Fin 800000) (k : Fin C)
    (h0 : 0 ≤ (s (ix1 e)).toInt) (h1 : (s (ix1 e)).toInt < 50000) :
    takeFill hb0 hb1 hb2 hb3 hb4 hr hu hb5 hb6 wf T s (ix2 e k)
      = T (ix2 ⟨(s (ix1 e)).toInt.toNat, by omega⟩ k) := by
  unfold takeFill
  rw [select_apply, broadcast_rows_apply hb5]
  -- the row-number column read at row e is the row number e itself
  have hv : ∀ i : (⟨2, ![800000, 1]⟩ : Shape).Idx, i 0 = e →
      broadcastInDim ⟨2, ![800000, 1]⟩ ![0] hb1
        (select (cmpi .slt s (broadcastInDim ⟨1, ![800000]⟩ ![] hb0 (constantI ⟨0, ![]⟩ 32 0#32)))
          (addi s (broadcastInDim ⟨1, ![800000]⟩ ![] hb0 (constantI ⟨0, ![]⟩ 32 50000#32))) s) i = s (ix1 e) := by
    intro i hi
    rw [broadcast_rows_apply hb1, hi, wrap_apply hb0 s (ix1 e) h0]
  -- both range tests pass at row e
  have hok : Host.reduce IntOp.andi
        (andi
          (cmpi .sge
            (broadcastInDim ⟨2, ![800000, 1]⟩ ![0] hb1
              (select (cmpi .slt s (broadcastInDim ⟨1, ![800000]⟩ ![] hb0 (constantI ⟨0, ![]⟩ 32 0#32)))
                (addi s (broadcastInDim ⟨1, ![800000]⟩ ![] hb0 (constantI ⟨0, ![]⟩ 32 50000#32))) s))
            (broadcastInDim ⟨2, ![800000, 1]⟩ ![] hb2 (constantI ⟨0, ![]⟩ 32 0#32)))
          (cmpi .sle
            (broadcastInDim ⟨2, ![800000, 1]⟩ ![0] hb1
              (select (cmpi .slt s (broadcastInDim ⟨1, ![800000]⟩ ![] hb0 (constantI ⟨0, ![]⟩ 32 0#32)))
                (addi s (broadcastInDim ⟨1, ![800000]⟩ ![] hb0 (constantI ⟨0, ![]⟩ 32 50000#32))) s))
            (broadcastInDim ⟨2, ![800000, 1]⟩ ![0, 1] hb4
              (broadcastInDim ⟨2, ![1, 1]⟩ ![1] hb3 (constantI ⟨1, ![1]⟩ 32 49999#32)))))
        (constantI ⟨0, ![]⟩ 1 1#1) hr hu (ix1 ((ix2 e k : (⟨2, ![800000, C]⟩ : Shape).Idx) 0)) = 1#1 := by
    refine reduce_andi_eq_one_of_all _ _ hr hu _ rfl fun i hi => ?_
    have hi0 : i 0 = e := by
      have := congrArg Fin.val (congrFun hi 0)
      exact Fin.ext this
    show IntOp.andi (IntOp.cmpi .sge _ 0#32) (IntOp.cmpi .sle _ 49999#32) = 1#1
    rw [hv i hi0, IntOp.andi_eq_one, IntOp.cmpi_sge, IntOp.cmpi_sle,
      show (0#32 : BitVec 32).toInt = 0 from by decide, show (49999#32 : BitVec 32).toInt = 49999 from by decide]
    omega
  rw [hok, select_one]
  refine gather_rows_apply_of_eq (by decide) wf T _ e k _ ?_
  rw [hv (ix2 e 0) rfl]
  show min (s (ix1 e)).toInt.toNat (50000 - 1) = (s (ix1 e)).toInt.toNat
  omega

end Take

end Cert.ScatterGather

end
-- ==== Proof.LibVecScatter.lean ====
/-
  Scatter-add into a vector, read at an index. A vector of N entries; E positions, held as an [E, 1] array of integer
  words; E update values. Update e lands on entry i exactly when the signed reading of word e is i, so entry i
  receives the sum of the updates whose word reads i. The same sum is what a one-column matrix [N, 1] receives at
  (i, 0) from one-column update rows, so the two scatters agree entry by entry.
-/
import Idealize.ShloMosaic.PureOps.Ideal
import Idealize.ShloMosaic.PureOps.Ideal.Laws
import Idealize.ShloMosaic.Lib.ValueIdx
import proofs.«178465_j15985868275842_2_alg».proof.Proof.LibScatterGather

noncomputable section

open scoped BigOperators

namespace Cert.VecScatter

open Idealize.ShloMosaic Idealize.ShloMosaic.ValueIdx

/-- A rank-1 index is its one coordinate. -/
def idxEquiv1 {n : Nat} : (⟨1, ![n]⟩ : Shape).Idx ≃ Fin n where
  toFun j := j 0
  invFun a := ix1 a
  left_inv j := (eq_ix1 j).symm
  right_inv a := rfl

/-- A sum over the indices of a vector is the sum over its coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The dimension numbers of a scatter of single entries into a vector: no window axis on the updates, the vector's
    one axis is the scattered one, one index word per update. -/
abbrev vecScatter (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

section
variable {N E w : Nat} (wf : ScatterDims.WF ⟨1, ![N]⟩ ⟨2, ![E, 1]⟩ ⟨1, ![E]⟩ [] [0] [0] 1)
  (idx : IVec ⟨2, ![E, 1]⟩ w)

/-- Update e's window starts at the signed reading of word e. -/
theorem start_vec (e : Fin E) : (vecScatter N E wf).start (ix1 e) idx 0 = (idx (ix2 e 0)).toInt := by
  unfold ScatterDims.start
  rw [dif_pos (show (0 : Fin 1) ∈ (vecScatter N E wf).scatterDimsToOperandDims from List.mem_singleton.mpr rfl)]
  have hsi : (vecScatter N E wf).siIdx (ix1 e) ⟨List.idxOf (0 : Fin 1) (vecScatter N E wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- There is no window axis: the window coordinate is 0. -/
theorem window_vec (e : Fin E) : (vecScatter N E wf).window (ix1 e) 0 = 0 := rfl

/-- WHERE AN UPDATE LANDS: update e lands on entry i exactly when word e reads i. -/
theorem resultIdx_vec (e : Fin E) (i : Fin N) :
    (vecScatter N E wf).resultIdx? (ix1 e) idx = some (ix1 i) ↔ (idx (ix2 e 0)).toInt = (i.val : ℤ) := by
  unfold ScatterDims.resultIdx?
  split
  · rename_i h
    rw [Option.some.injEq]
    constructor
    · intro hf
      have h0 := congrArg Fin.val (congrFun hf 0)
      simp only [start_vec, window_vec] at h0
      have g0 := (h 0).1
      simp only [start_vec, window_vec] at g0
      have : ((idx (ix2 e 0)).toInt + ((0 : ℕ) : ℤ)).toNat = i.val := h0
      omega
    · intro hv
      funext a; refine Fin.ext ?_
      match a with
      | ⟨0, _⟩ =>
        show ((vecScatter N E wf).start (ix1 e) idx 0 + ((vecScatter N E wf).window (ix1 e) 0 : ℤ)).toNat = i.val
        rw [start_vec, window_vec, hv]; omega
  · rename_i h
    constructor
    · intro hf; exact absurd hf (by simp)
    · intro hv
      refine absurd (fun a => ?_) h
      match a with
      | ⟨0, _⟩ =>
        show 0 ≤ (vecScatter N E wf).start (ix1 e) idx 0 + ((vecScatter N E wf).window (ix1 e) 0 : ℤ) ∧
          (vecScatter N E wf).start (ix1 e) idx 0 + ((vecScatter N E wf).window (ix1 e) 0 : ℤ) < (N : ℤ)
        rw [start_vec, window_vec, hv]; have := i.isLt; omega

/-- THE SCATTER-ADD READ AT i: the vector's entry plus the updates e whose word reads i. -/
theorem scatterAdd_vec_apply (x : (⟨1, ![N]⟩ : Shape).Idx → EReal) (upd : (⟨1, ![E]⟩ : Shape).Idx → EReal) (i : Fin N) :
    Ideal.hostScatterAdd (vecScatter N E wf) x idx upd (ix1 i)
      = x (ix1 i) + ∑ e ∈ Finset.univ.filter (fun e : Fin E => (idx (ix2 e 0)).toInt = (i.val : ℤ)), upd (ix1 e) := by
  unfold Ideal.hostScatterAdd
  congr 1
  rw [Finset.sum_filter, sum_idx1, Finset.sum_filter]
  refine Finset.sum_congr rfl fun e _ => ?_
  simp only [resultIdx_vec]

/-- A constant scattered into a constant vector, and the same constant scattered as one-column rows into a constant
    one-column matrix, agree: entry i of the first is entry (i, 0) of the second. -/
theorem scatterAdd_vec_eq_col (wf' : ScatterDims.WF ⟨2, ![N, 1]⟩ ⟨2, ![E, 1]⟩ ⟨2, ![E, 1]⟩ [1] [0] [0] 1)
    (z o : EReal) (i : Fin N) :
    Ideal.hostScatterAdd (vecScatter N E wf) (fun _ => z) idx (fun _ => o) (ix1 i)
      = Ideal.hostScatterAdd (Cert.ScatterGather.rowScatter N E 1 wf') (fun _ => z) idx (fun _ => o) (ix2 i (0 : Fin 1)) := by
  rw [scatterAdd_vec_apply, Cert.ScatterGather.scatterAdd_rows_apply]

end

end Cert.VecScatter

end
-- ==== Proof.LibFlatten.lean ====
/-
  A layout operation read at an index given by coordinates: a column `[a, 1]` flattened to a vector `[a]` (what taking
  column 0 of a one-column matrix, `x[:, 0]`, lowers to). For any extent and any element type. (The row form
  `[1, a] → [a]` is in the library's Lib/ValueLayout.lean; this is its transpose.)
-/
import Idealize.ShloMosaic.Lib.Pipeline.Value
import Idealize.ShloMosaic.Lib.ValueIdx

namespace Cert.LibFlatten

open Idealize.ShloMosaic Idealize.ShloMosaic.ValueIdx

variable {α : Type}

/-- A column `[a, 1]` flattened to `[a]` reads, at `i`, the column's entry in row `i`: both indices have row-major
    position `i`. -/
theorem shapeCast_a1_a_apply {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    omega)

end Cert.LibFlatten
-- ==== Proof.Bridge.lean ====
/-
  The kernel's result is the reference's result.

  Both sides, read at node r, are stage 1's row function (and, one layer down, stage 0's), so it is enough that their
  operands agree:
  · the in-degree count: the kernel scatters ones into a vector and reshapes to a column, the reference scatters
    one-column rows of ones into a column; entry r of the one is entry (r, 0) of the other, both floored at one;
  · the bias rows: a vector reshaped to a one-row matrix reads, at (0, j), the vector at j; the last weight column
    reshaped to a row reads, at (0, q), the column at (q, 0);
  · the first aggregate is the same term on both sides; the second is the same function of the layer-0 rows, which
    agree by the layer below.
-/
import proofs.«178465_j15985868275842_2_alg».proof.Proof.KernelValue
import proofs.«178465_j15985868275842_2_alg».proof.Proof.RefRows
import proofs.«178465_j15985868275842_2_alg».proof.Proof.LibVecScatter
import proofs.«178465_j15985868275842_2_alg».proof.Proof.LibKeepdims
import proofs.«178465_j15985868275842_2_alg».proof.Proof.LibFlatten
import Idealize.ShloMosaic.Lib.ValueLayout

set_option maxRecDepth 16384

noncomputable section

namespace Cert.Bridge

open Idealize.ShloMosaic Idealize.ShloMosaic.TcCoe Idealize.ShloMosaic.ValueIdx Idealize.SL.Sem
open Cert.Sage Cert.ReferenceIdeal.Read

/-- A one-column matrix reshaped to a one-row matrix reads, at (0, i), the column's entry at (i, 0). -/
theorem shapeCast_a1_1a_apply {α : Type} {a : ℕ} (x : (⟨2, ![a, 1]⟩ : Shape).Idx → α)
    (h : (⟨2, ![a, 1]⟩ : Shape).ShapeCasts ⟨2, ![1, a]⟩) (u : Fin 1) (i : Fin a) :
    shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu]; omega)

/-! ## The count -/

/-- The host's accumulating scatter on the extended reals is the exact sum (by definition). -/
theorem scatterAdd_ideal {s si u : Shape} {w : Nat} (d : ScatterDims s si u) (x : FVec Ideal s .f32) (idx : IVec si w)
    (upd : FVec Ideal u .f32) : Host.scatterAdd (F := Ideal) d x idx upd = Ideal.hostScatterAdd d x idx upd := rfl

/-- The kernel's record of dimension numbers for its count scatter is the scatter into a vector … -/
theorem countDims_kernel : Cert.KernelIdeal.scatter_S50000_S1600000x1_S1600000_n_0_0_1 = Cert.VecScatter.vecScatter 50000 1600000 Cert.KernelIdeal.scatter_S50000_S1600000x1_S1600000_n_0_0_1.wf := rfl

/-- … and the reference's is the scatter of one-column rows. -/
theorem countDims_reference : Cert.ReferenceIdeal.scatter_S50000x1_S1600000x1_S1600000x1_1_0_0_1 = Cert.ScatterGather.rowScatter 50000 1600000 1 Cert.ReferenceIdeal.scatter_S50000x1_S1600000x1_S1600000x1_1_0_0_1.wf := rfl

/-- The kernel's count column at (r, 0) is the reference's floored count at (r, 0), for layer 0 … -/
theorem count_eq (x1 : (⟨Cert.ReferenceIdeal.S2x1600000, .i32⟩ : BufTy).Contents (Elt Ideal)) (r : Fin 50000) :
    Cert.KernelIdeal.HostValue.countCol x1 (ix2 r (0 : Fin 1)) = val_main_v19 (F := Ideal) x1 (ix2 r (0 : Fin 1)) := by
  unfold Cert.KernelIdeal.HostValue.countCol
  rw [Cert.LibKeepdims.shapeCast_a_a1_apply, val_main_v19_apply, maximumf_apply]
  unfold val_main_v17 val_main_v18 val_main_v15 val_main_v14 val_main_cst_3 val_main_cst_2 val_main_cst_1
  rw [countDims_kernel, countDims_reference]
  rw [scatterAdd_ideal, scatterAdd_ideal, Cert.VecScatter.scatterAdd_vec_apply Cert.KernelIdeal.scatter_S50000_S1600000x1_S1600000_n_0_0_1.wf,
    Cert.ScatterGather.scatterAdd_rows_apply Cert.ReferenceIdeal.scatter_S50000x1_S1600000x1_S1600000x1_1_0_0_1.wf]
  exact congrArg₂ max (congrArg₂ (· + ·) rfl (Finset.sum_congr rfl fun e _ => rfl)) rfl

/-- … and for layer 1, where the reference computes the same count again. -/
theorem count_eq' (x1 : (⟨Cert.ReferenceIdeal.S2x1600000, .i32⟩ : BufTy).Contents (Elt Ideal)) (r : Fin 50000) :
    Cert.KernelIdeal.HostValue.countCol x1 (ix2 r (0 : Fin 1)) = val_main_v49 (F := Ideal) x1 (ix2 r (0 : Fin 1)) := by
  refine (count_eq x1 r).trans ?_
  unfold val_main_v19 val_main_v49 val_main_v17 val_main_v47 val_main_v18 val_main_v48 val_main_v15 val_main_v45 val_main_v14 val_main_v44
    val_main_v16 val_main_v46 val_main_cst_3 val_main_cst_10 val_main_cst_2 val_main_cst_9 val_main_cst_1 val_main_cst_8
  rfl

section
variable (m : (ℓ : Loc Cert.KernelIdeal.nD Cert.KernelIdeal.τ Cert.KernelIdeal.sig) → Buf (Elt Ideal) ℓ) (c : Dev Cert.KernelIdeal.nD)

/-! ## Layer 0 -/

/-- The first call's output array is the reference's clamped, normalized layer-0 output. -/
theorem layer0_eq : Cert.KernelIdeal.HostValue.layer0 m c
    = val_main_v33 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
        (m ((c.tc : Thread Cert.KernelIdeal.nD Cert.KernelIdeal.τ).loc Cert.KernelIdeal.main_arg3)) (m ((c.tc : Thread Cert.KernelIdeal.nD Cert.KernelIdeal.τ).loc Cert.KernelIdeal.main_arg4)) := by
  funext i
  obtain ⟨r, j, rfl⟩ : ∃ (r : Fin 50000) (j : Fin 64), i = ix2 r j := ⟨i 0, i 1, eq_ix2 i⟩
  rw [Cert.ReferenceIdeal.Rows.stage0_apply]
  unfold Cert.KernelIdeal.HostValue.layer0 Cert.KernelIdeal.Blocks0.G
  show stage0Row _ _ (Cert.KernelIdeal.HostValue.countCol _ (ix2 r (0 : Fin 1))) _ _ _ j = _
  rw [count_eq]
  simp only [shapeCast_a_1a_apply]

/-- The second aggregate is the reference's. -/
theorem agg_eq : Cert.KernelIdeal.HostValue.aggOf (m ((c.tc : Thread Cert.KernelIdeal.nD Cert.KernelIdeal.τ).loc Cert.KernelIdeal.main_arg1)) (Cert.KernelIdeal.HostValue.layer0 m c)
    = val_main_v43 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
        (m ((c.tc : Thread Cert.KernelIdeal.nD Cert.KernelIdeal.τ).loc Cert.KernelIdeal.main_arg3)) (m ((c.tc : Thread Cert.KernelIdeal.nD Cert.KernelIdeal.τ).loc Cert.KernelIdeal.main_arg4)) := by
  rw [layer0_eq]
  unfold Cert.KernelIdeal.HostValue.aggOf val_main_v43 val_main_v40
  have hs : Cert.KernelIdeal.scatter_S50000x64_S1600000x1_S1600000x64_1_0_0_1 = Cert.ReferenceIdeal.scatter_S50000x64_S1600000x1_S1600000x64_1_0_0_1 := rfl
  have hg : Cert.KernelIdeal.gather_S50000x64_S1600000x1_S1600000x64_1_0_n_n_0_1_164 = Cert.ReferenceIdeal.gather_S50000x64_S1600000x1_S1600000x64_1_0_n_n_0_1_164 := rfl
  rw [hs, hg]

/-! ## The result -/

/-- The kernel's result array is the reference's. -/
theorem result_eq : shapeCast Cert.KernelIdeal.S50000 (Cert.KernelIdeal.HostValue.logits m c) Cert.KernelIdeal.Gen.shapeCasts_S50000x1_S50000
    = val_main_v72 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
        (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))
        (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))
        (m ((c.tc : Thread Cert.KernelIdeal.nD Cert.KernelIdeal.τ).loc Cert.KernelIdeal.main_arg11)) := by
  funext i
  obtain ⟨r, rfl⟩ : ∃ r : Fin 50000, i = ix1 r := ⟨i 0, eq_ix1 i⟩
  rw [Cert.ReferenceIdeal.Rows.stage1_apply, Cert.LibFlatten.shapeCast_a1_a_apply]
  unfold Cert.KernelIdeal.HostValue.logits Cert.KernelIdeal.Blocks1.G
  show stage1Row _ _ (Cert.KernelIdeal.HostValue.countCol _ (ix2 r (0 : Fin 1))) _ _ _ _ _ _ _ = _
  rw [count_eq', agg_eq, layer0_eq]
  simp only [shapeCast_a_1a_apply, shapeCast_a1_1a_apply]

end

end Cert.Bridge

end
-- ==== Proof.lean ====
/-
  A two-layer graph network with mean aggregation over incoming edges, row normalization and a two-layer classifier:
  the tiled kernel (two pallas_calls over blocks of 5000 nodes, with the gathers and scatter-adds on the host between
  them) against the whole-array reference, on the extended reals.

  The three frames: the two kernel programs' are the generated frame theorems; the reference's is its generated run
  with the result dropped. Nothing was rewritten by the idealization pass, so there is nothing to preserve.

  The value claim. Both programs compute, for every node r, stage 1's row function (Proof/Spec.lean) of row r of the
  second aggregate, of the layer-0 output and of the in-degree count, and of the weights and biases; the layer-0
  output is in turn stage 0's row function of the first aggregate, the node's features and the count. The kernel's
  result is read back through @main's five segments (Proof/KernelRun.lean, Proof/KernelValue.lean), each pallas_call's
  output array being its blocks' rows put together (Proof/KernelBlocks0.lean, Proof/KernelBlocks1.lean, over the
  bodies read at an entry in Proof/KernelRows.lean); the reference's result is read one operation at a time
  (Proof/RefRows.lean). The operands agree (Proof/Bridge.lean): the aggregates are the same host terms, the count
  scattered into a vector is the count scattered into a one-column matrix, and the reshaped biases read their
  vectors. No law used needs finite inputs, so the precondition is not opened.
-/
import proofs.«178465_j15985868275842_2_alg».proof.Defs
import proofs.«178465_j15985868275842_2_alg».proof.Proof.Gen.Kernel
import proofs.«178465_j15985868275842_2_alg».proof.Proof.Gen.Kernel.Skeleton
import proofs.«178465_j15985868275842_2_alg».proof.Proof.Gen.Kernel.Launch
import proofs.«178465_j15985868275842_2_alg».proof.Proof.Gen.Kernel.Points
import proofs.«178465_j15985868275842_2_alg».proof.Proof.Gen.Kernel.Frame
import proofs.«178465_j15985868275842_2_alg».proof.Proof.Gen.KernelIdeal
import proofs.«178465_j15985868275842_2_alg».proof.Proof.Gen.KernelIdeal.Skeleton
import proofs.«178465_j15985868275842_2_alg».proof.Proof.Gen.KernelIdeal.Launch
import proofs.«178465_j15985868275842_2_alg».proof.Proof.Gen.KernelIdeal.Points
import proofs.«178465_j15985868275842_2_alg».proof.Proof.Gen.KernelIdeal.Frame
import proofs.«178465_j15985868275842_2_alg».proof.Proof.Gen.ReferenceIdeal
import proofs.«178465_j15985868275842_2_alg».proof.Proof.Gen.Pre_finite_inputs
import proofs.«178465_j15985868275842_2_alg».proof.Proof.Gen.ReferenceIdeal.Run
import proofs.«178465_j15985868275842_2_alg».proof.Proof.Gen.ReferenceIdeal.Read
import proofs.«178465_j15985868275842_2_alg».proof.Proof.KernelRun
import proofs.«178465_j15985868275842_2_alg».proof.Proof.KernelValue
import proofs.«178465_j15985868275842_2_alg».proof.Proof.Bridge
import Idealize.ShloMosaic.Adequacy
import Idealize.ShloMosaic.Init

set_option maxRecDepth 16384

noncomputable section

namespace Cert.Proof

open Idealize.ShloMosaic Idealize.SL.Sem

/-- The word-level kernel runs and leaves its arguments as launched. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference runs and leaves its arguments as launched: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization pass rewrote nothing. -/
theorem preserves : Cert.preserves_Kernel_KernelIdeal := trivial

/-- From memories agreeing on the arguments both programs end with the same result array: the closing reshape of
    stage 1 of the arrays described above, written over the kernel's arguments. -/
theorem algebraic : Cert.algebraic_KernelIdeal_ReferenceIdeal := by
  intro m ρ m' ρ' _ hagree
  refine ⟨fun c => shapeCast Cert.KernelIdeal.S50000 (Cert.KernelIdeal.HostValue.logits m c)
    Cert.KernelIdeal.Gen.shapeCasts_S50000x1_S50000, ?_, ?_⟩
  · exact (θ_run Cert.KernelIdeal.defs _ _).mono
      (fun r h c => ⟨(h c).1.trans (Cert.KernelIdeal.HostValue.result_eq m ρ c), (h c).2⟩)
      (Cert.KernelIdeal.ResultRun.run_result (F := Ideal) m ρ)
  · refine (θ_run Cert.ReferenceIdeal.defs _ _).mono (fun _ h c => ⟨?_, (h c).2⟩)
      (Cert.ReferenceIdeal.Value.run (F := Ideal) m' ρ')
    obtain ⟨h0, h1, h2, h3, h4, h5, h6, h7, h8, h9, h10, h11⟩ := hagree c
    rw [(h c).1, Cert.ReferenceIdeal.Read.val_main_v72_eq, h0, h1, h2, h3, h4, h5, h6, h7, h8, h9, h10, h11]
    exact (Cert.Bridge.result_eq m c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
